-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x32 : Shape := ⟨2, ![500000, 32]⟩
abbrev S500000 : Shape := ⟨1, ![500000]⟩
abbrev S500000x16 : Shape := ⟨2, ![500000, 16]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S500000x32 : S_.BroadcastsInDim S500000x32 (![] : Fin 0 → Fin S500000x32.rank)
  reducesTo_S500000x32_S_d0_1 : S500000x32.ReducesTo [0, 1] S_
  h_S_ : 0 < S_.numel
  bcast_S_S500000x16 : S_.BroadcastsInDim S500000x16 (![] : Fin 0 → Fin S500000x16.rank)
  reducesTo_S500000x16_S_d0_1 : S500000x16.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x64 .f32) (main_arg8 : FVec F S64 .f32) (main_arg9 : FVec F S64x1 .f32) (main_arg10 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S500000x32 .f32) (main_arg1 : IVec S500000 32) (main_arg2 : IVec S500000 32) (main_arg3 : FVec F S500000x16 .f32) (main_arg4 : FVec F S500000x16 .f32) (main_arg5 : FVec F S64x128 .f32) (main_arg6 : FVec F S128 .f32) (main_arg7 : FVec F S128x64 .f32) (main_arg8 : FVec F S64 .f32) (main_arg9 : FVec F S64x1 .f32) (main_arg10 : FVec F S1 .f32) : IVec S_ 1 :=
  let main_v0 : FVec F S500000x32 .f32 := Host.absf main_arg0
  let main_cst : FVec F S_ .f32 := constant S_ .f32 0x7F800000#32
  let main_v1 : FVec F S500000x32 .f32 := broadcastInDim S500000x32 ![] bcast_S_S500000x32 main_cst
  let main_v2 : IVec S500000x32 1 := cmpf .olt main_v0 main_v1
  let main_c : IVec S_ 1 := constantI S_ 1 1#1
  let main_v3 : IVec S_ 1 := (fun x v => Host.reduce IntOp.andi x v reducesTo_S500000x32_S_d0_1 h_S_) main_v2 main_c
  let main_v4 : FVec F S500000x16 .f32 := Host.absf main_arg3
  let main_cst_0 : FVec F S_ .f32 := constant S_ .f32 0x7F800000#32
  let main_v5 : FVec F S500000x16 .f32 := broadcastInDim S500000x16 ![] bcast_S_S500000x16 main_cst_0
  let main_v6 : IVec S500000x16 1 := cmpf .olt main_v4 main_v5
  let main_c_1 : IVec S_ 1 := constantI S_ 1 1#1
  let main_v7 : IVec S_ 1 := (fun x v => Host.reduce IntOp.andi x v reducesTo_S500000x16_S_d0_1 h_S_) main_v6 main_c_1
  let main_v8 : IVec S_ 1 := andi main_v3 main_v7
  let main_v9 : FVec F S500000x16 .f32 := Host.absf main_arg4
  let main_cst_2 : FVec F S_ .f32 := constant S_ .f32 0x7F800000#32
  let main_v10 : FVec F S500000x16 .f32 := broadcastInDim S500000x16 ![] bcast_S_S500000x16 main_cst_2
  let main_v11 : IVec S500000x16 1 := cmpf .olt main_v9 main_v10
  let main_c_3 : IVec S_ 1 := constantI S_ 1 1#1
  let main_v12 : IVec S_ 1 := (fun x v => Host.reduce IntOp.andi x v reducesTo_S500000x16_S_d0_1 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_v13 main_v16
-- ==== Kernel.lean ====
abbrev S500000x32 : Shape := ⟨2, ![500000, 32]⟩
abbrev S500000 : Shape := ⟨1, ![500000]⟩
abbrev S500000x16 : Shape := ⟨2, ![500000, 16]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S50000x16 : Shape := ⟨2, ![50000, 16]⟩
abbrev S500000x1 : Shape := ⟨2, ![500000, 1]⟩
abbrev S50000 : Shape := ⟨1, ![50000]⟩
abbrev S50000x1 : Shape := ⟨2, ![50000, 1]⟩
abbrev S10000x16 : Shape := ⟨2, ![10000, 16]⟩
abbrev S10000 : Shape := ⟨1, ![10000]⟩
abbrev S10000x1 : Shape := ⟨2, ![10000, 1]⟩
abbrev S10000x32 : Shape := ⟨2, ![10000, 32]⟩
abbrev S10000x64 : Shape := ⟨2, ![10000, 64]⟩
abbrev S10000x128 : Shape := ⟨2, ![10000, 128]⟩
abbrev S1x128 : Shape := ⟨2, ![1, 128]⟩
abbrev S1x64 : Shape := ⟨2, ![1, 64]⟩
abbrev S1x1 : Shape := ⟨2, ![1, 1]⟩

abbrev nBuf : Space → Nat
  | .hbm => 86
  | .vmem => 14
  | .smem => 0
  | _ => 0

abbrev bufTy : (tb : Table) → Fin (tcTables nBuf tb) → BufTy
  | .hbm, ⟨0, _⟩ => ⟨S500000x32, .f32⟩
  | .hbm, ⟨1, _⟩ => ⟨S500000, .i32⟩
  | .hbm, ⟨2, _⟩ => ⟨S500000, .i32⟩
  | .hbm, ⟨3, _⟩ => ⟨S500000x16, .f32⟩
  | .hbm, ⟨4, _⟩ => ⟨S500000x16, .f32⟩
  | .hbm, ⟨5, _⟩ => ⟨S64x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S_, .f32⟩
  | .hbm, ⟨12, _⟩ => ⟨S50000x16, .f32⟩
  | .hbm, ⟨13, _⟩ => ⟨S500000x1, .i32⟩
  | .hbm, ⟨14, _⟩ => ⟨S50000x16, .f32⟩
  | .hbm, ⟨15, _⟩ => ⟨S_, .f32⟩
  | .hbm, ⟨16, _⟩ => ⟨S500000, .f32⟩
  | .hbm, ⟨17, _⟩ => ⟨S_, .f32⟩
  | .hbm, ⟨18, _⟩ => ⟨S50000, .f32⟩
  | .hbm, ⟨19, _⟩ => ⟨S500000x1, .i32⟩
  | .hbm, ⟨20, _⟩ => ⟨S50000, .f32⟩
  | .hbm, ⟨21, _⟩ => ⟨S50000x1, .f32⟩
  | .hbm, ⟨22, _⟩ => ⟨S_, .f32⟩
  | .hbm, ⟨23, _⟩ => ⟨S50000x1, .f32⟩
  | .hbm, ⟨24, _⟩ => ⟨S50000x1, .i1⟩
  | .hbm, ⟨25, _⟩ => ⟨S_, .f32⟩
  | .hbm, ⟨26, _⟩ => ⟨S50000x1, .f32⟩
  | .hbm, ⟨27, _⟩ => ⟨S50000x1, .i1⟩
  | .hbm, ⟨28, _⟩ => ⟨S_, .f32⟩
  | .hbm, ⟨29, _⟩ => ⟨S_, .f32⟩
  | .hbm, ⟨30, _⟩ => ⟨S50000x1, .f32⟩
  | .hbm, ⟨31, _⟩ => ⟨S50000x1, .f32⟩
  | .hbm, ⟨32, _⟩ => ⟨S50000x16, .f32⟩
  | .hbm, ⟨33, _⟩ => ⟨S50000x16, .f32⟩
  | .hbm, ⟨34, _⟩ => ⟨S_, .f32⟩
  | .hbm, ⟨35, _⟩ => ⟨S_, .f32⟩
  | .hbm, ⟨36, _⟩ => ⟨S50000x16, .i1⟩
  | .hbm, ⟨37, _⟩ => ⟨S50000x16, .f32⟩
  | .hbm, ⟨38, _⟩ => ⟨S50000x16, .f32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000x16, .f32⟩
  | .hbm, ⟨48, _⟩ => ⟨S_, .f32⟩
  | .hbm, ⟨49, _⟩ => ⟨S10000x16, .f32⟩
  | .hbm, ⟨50, _⟩ => ⟨S500000x1, .i32⟩
  | .hbm, ⟨51, _⟩ => ⟨S10000x16, .f32⟩
  | .hbm, ⟨52, _⟩ => ⟨S_, .f32⟩
  | .hbm, ⟨53, _⟩ => ⟨S500000, .f32⟩
  | .hbm, ⟨54, _⟩ => ⟨S_, .f32⟩
  | .hbm, ⟨55, _⟩ => ⟨S10000, .f32⟩
  | .hbm, ⟨56, _⟩ => ⟨S500000x1, .i32⟩
  | .hbm, ⟨57, _⟩ => ⟨S10000, .f32⟩
  | .hbm, ⟨58, _⟩ => ⟨S10000x1, .f32⟩
  | .hbm, ⟨59, _⟩ => ⟨S_, .f32⟩
  | .hbm, ⟨60, _⟩ => ⟨S10000x1, .f32⟩
  | .hbm, ⟨61, _⟩ => ⟨S10000x1, .i1⟩
  | .hbm, ⟨62, _⟩ => ⟨S_, .f32⟩
  | .hbm, ⟨63, _⟩ => ⟨S10000x1, .f32⟩
  | .hbm, ⟨64, _⟩ => ⟨S10000x1, .i1⟩
  | .hbm, ⟨65, _⟩ => ⟨S_, .f32⟩
  | .hbm, ⟨66, _⟩ => ⟨S_, .f32⟩
  | .hbm, ⟨67, _⟩ => ⟨S10000x1, .f32⟩
  | .hbm, ⟨68, _⟩ => ⟨S10000x1, .f32⟩
  | .hbm, ⟨69, _⟩ => ⟨S10000x16, .f32⟩
  | .hbm, ⟨70, _⟩ => ⟨S10000x16, .f32⟩
  | .hbm, ⟨71, _⟩ => ⟨S_, .f32⟩
  | .hbm, ⟨72, _⟩ => ⟨S_, .f32⟩
  | .hbm, ⟨73, _⟩ => ⟨S10000x16, .i1⟩
  | .hbm, ⟨74, _⟩ => ⟨S10000x16, .f32⟩
  | .hbm, ⟨75, _⟩ => ⟨S10000x16, .f32⟩
  | .hbm, ⟨76, _⟩ => ⟨S_, .i32⟩
  | .hbm, ⟨77, _⟩ => ⟨S500000, .i32⟩
  | .hbm, ⟨78, _⟩ => ⟨S500000, .i1⟩
  | .hbm, ⟨79, _⟩ => ⟨S_, .i32⟩
  | .hbm, ⟨80, _⟩ => ⟨S500000, .i32⟩
  | .hbm, ⟨81, _⟩ => ⟨S500000, .i32⟩
  | .hbm, ⟨82, _⟩ => ⟨S500000, .i32⟩
  | .hbm, ⟨83, _⟩ => ⟨S500000x1, .i32⟩
  | .hbm, ⟨84, _⟩ => ⟨S500000x16, .f32⟩
  | .hbm, ⟨85, _⟩ => ⟨S500000x1, .f32⟩
  | .local _ .vmem, ⟨0, _⟩ => ⟨S10000x32, .f32⟩
  | .local _ .vmem, ⟨1, _⟩ => ⟨S10000x32, .f32⟩
  | .local _ .vmem, ⟨2, _⟩ => ⟨S10000x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S64x128, .f32⟩
  | .local _ .vmem, ⟨7, _⟩ => ⟨S128, .f32⟩
  | .local _ .vmem, ⟨8, _⟩ => ⟨S128x64, .f32⟩
  | .local _ .vmem, ⟨9, _⟩ => ⟨S64, .f32⟩
  | .local _ .vmem, ⟨10, _⟩ => ⟨S64x1, .f32⟩
  | .local _ .vmem, ⟨11, _⟩ => ⟨S1, .f32⟩
  | .local _ .vmem, ⟨12, _⟩ => ⟨S10000x1, .f32⟩
  | .local _ .vmem, ⟨13, _⟩ => ⟨S10000x1, .f32⟩
  | _, _ => ⟨S500000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_5 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_6 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_7 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_8 : Ref sig .tc := ⟨.hbm, 52, rfl⟩
abbrev main_v26 : Ref sig .tc := ⟨.hbm, 53, rfl⟩
abbrev main_cst_9 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_10 : Ref sig .tc := ⟨.hbm, 59, rfl⟩
abbrev main_v31 : Ref sig .tc := ⟨.hbm, 60, rfl⟩
abbrev main_v32 : Ref sig .tc := ⟨.hbm, 61, rfl⟩
abbrev main_cst_11 : Ref sig .tc := ⟨.hbm, 62, rfl⟩
abbrev main_v33 : Ref sig .tc := ⟨.hbm, 63, rfl⟩
abbrev main_v34 : Ref sig .tc := ⟨.hbm, 64, rfl⟩
abbrev main_cst_12 : Ref sig .tc := ⟨.hbm, 65, rfl⟩
abbrev main_call2_v0 : Ref sig .tc := ⟨.hbm, 66, rfl⟩
abbrev main_call2_v1 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_13 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v38 : Ref sig .tc := ⟨.hbm, 75, rfl⟩
abbrev main_c_14 : Ref sig .tc := ⟨.hbm, 76, rfl⟩
abbrev main_v39 : Ref sig .tc := ⟨.hbm, 77, rfl⟩
abbrev main_v40 : Ref sig .tc := ⟨.hbm, 78, rfl⟩
abbrev main_c_15 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S50000x16 : S_.BroadcastsInDim S50000x16 (![] : Fin 0 → Fin S50000x16.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x16_0_1 : S50000x1.BroadcastsInDim S50000x16 (![0, 1] : Fin 2 → Fin S50000x16.rank)
  bcast_S_S10000x16 : S_.BroadcastsInDim S10000x16 (![] : Fin 0 → Fin S10000x16.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x16_0_1 : S10000x1.BroadcastsInDim S10000x16 (![0, 1] : Fin 2 → Fin S10000x16.rank)
  inb_S10000x32_S10000x32_0_0 : ∀ a, (![0, 0] : Fin 2 → Nat) a + S10000x32.size a ≤ S10000x32.size a
  h_S10000x32 : 0 < S10000x32.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  concatenates_S10000x32_S10000x16_S10000x16_S10000x64_d1 : Shape.Concatenates [S10000x32, S10000x16, S10000x16] S10000x64 1
  inb_S64x128_S64x128_0_0 : ∀ a, (![0, 0] : Fin 2 → Nat) a + S64x128.size a ≤ S64x128.size a
  h_S64x128 : 0 < S64x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S50000x16_S500000x1_S500000x16_1_0_0_1_wf : ScatterDims.WF S50000x16 S500000x1 S500000x16 [1] [0] [0] 1
  scatter_S50000_S500000x1_S500000_n_0_0_1_wf : ScatterDims.WF S50000 S500000x1 S500000 [] [0] [0] 1
  gather_S50000x16_S500000x1_S500000x16_1_0_n_n_0_1_116_wf : GatherDims.WF S50000x16 S500000x1 S500000x16 [1] [0] [] [0] [] 1 ![1, 16]
  scatter_S10000x16_S500000x1_S500000x16_1_0_0_1_wf : ScatterDims.WF S10000x16 S500000x1 S500000x16 [1] [0] [0] 1
  scatter_S10000_S500000x1_S500000_n_0_0_1_wf : ScatterDims.WF S10000 S500000x1 S500000 [] [0] [0] 1
  gather_S10000x16_S500000x1_S500000x16_1_0_n_n_0_1_116_wf : GatherDims.WF S10000x16 S500000x1 S500000x16 [1] [0] [] [0] [] 1 ![1, 16]
  dot_S10000x64_S64x128_S10000x128_1_0_0_1_n_n_wf : DotDims.WF S10000x64 S64x128 S10000x128 [1] [0] [0] [1] [] []
  dot_S10000x128_S128x64_S10000x64_1_0_0_1_n_n_wf : DotDims.WF S10000x128 S128x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S500000x32.size a
  hwx0_0 : ∀ i : grid0.Coords, EltTy.bits .f32 = 32 ∨ (Rect.block (s := S500000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S500000x16.size a
  hwx0_1 : ∀ i : grid0.Coords, EltTy.bits .f32 = 32 ∨ (Rect.block (s := S500000x16) S10000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S500000x16.size a
  hwx0_2 : ∀ i : grid0.Coords, EltTy.bits .f32 = 32 ∨ (Rect.block (s := S500000x16) S10000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x1.size a ≤ S500000x1.size a
  hwx0_9 : ∀ i : grid0.Coords, EltTy.bits .f32 = 32 ∨ (Rect.block (s := S500000x1) S10000x1.size (cc0_transform_9 i) (hinb0_9 i)).WholeWords (EltTy.packing .f32)

variable [Facts₀]

def scatter_S50000x16_S500000x1_S500000x16_1_0_0_1 : ScatterDims S50000x16 S500000x1 S500000x16 where
  updateWindowDims := [1]
  insertedWindowDims := [0]
  scatterDimsToOperandDims := [0]
  indexVectorDim := 1
  wf := scatter_S50000x16_S500000x1_S500000x16_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x16_S500000x1_S500000x16_1_0_n_n_0_1_116 : GatherDims S50000x16 S500000x1 S500000x16 where
  offsetDims := [1]
  collapsedSliceDims := [0]
  operandBatchingDims := []
  startIndicesBatchingDims := []
  startIndexMap := [0]
  indexVectorDim := 1
  sliceSizes := ![1, 16]
  wf := gather_S50000x16_S500000x1_S500000x16_1_0_n_n_0_1_116_wf
def scatter_S10000x16_S500000x1_S500000x16_1_0_0_1 : ScatterDims S10000x16 S500000x1 S500000x16 where
  updateWindowDims := [1]
  insertedWindowDims := [0]
  scatterDimsToOperandDims := [0]
  indexVectorDim := 1
  wf := scatter_S10000x16_S500000x1_S500000x16_1_0_0_1_wf
def scatter_S10000_S500000x1_S500000_n_0_0_1 : ScatterDims S10000 S500000x1 S500000 where
  updateWindowDims := []
  insertedWindowDims := [0]
  scatterDimsToOperandDims := [0]
  indexVectorDim := 1
  wf := scatter_S10000_S500000x1_S500000_n_0_0_1_wf
def gather_S10000x16_S500000x1_S500000x16_1_0_n_n_0_1_116 : GatherDims S10000x16 S500000x1 S500000x16 where
  offsetDims := [1]
  collapsedSliceDims := [0]
  operandBatchingDims := []
  startIndicesBatchingDims := []
  startIndexMap := [0]
  indexVectorDim := 1
  sliceSizes := ![1, 16]
  wf := gather_S10000x16_S500000x1_S500000x16_1_0_n_n_0_1_116_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S10000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v46) S10000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S500000x32 : Shape := ⟨2, ![500000, 32]⟩
abbrev S500000 : Shape := ⟨1, ![500000]⟩
abbrev S500000x16 : Shape := ⟨2, ![500000, 16]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S50000x16 : Shape := ⟨2, ![50000, 16]⟩
abbrev S500000x1 : Shape := ⟨2, ![500000, 1]⟩
abbrev S50000 : Shape := ⟨1, ![50000]⟩
abbrev S50000x1 : Shape := ⟨2, ![50000, 1]⟩
abbrev S10000x16 : Shape := ⟨2, ![10000, 16]⟩
abbrev S10000 : Shape := ⟨1, ![10000]⟩
abbrev S10000x1 : Shape := ⟨2, ![10000, 1]⟩
abbrev S500000x64 : Shape := ⟨2, ![500000, 64]⟩
abbrev S500000x128 : Shape := ⟨2, ![500000, 128]⟩
abbrev S1x128 : Shape := ⟨2, ![1, 128]⟩
abbrev S1x64 : Shape := ⟨2, ![1, 64]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S500000x32, .f32⟩
  | .hbm, ⟨1, _⟩ => ⟨S500000, .i32⟩
  | .hbm, ⟨2, _⟩ => ⟨S500000, .i32⟩
  | .hbm, ⟨3, _⟩ => ⟨S500000x16, .f32⟩
  | .hbm, ⟨4, _⟩ => ⟨S500000x16, .f32⟩
  | .hbm, ⟨5, _⟩ => ⟨S64x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S_, .f32⟩
  | .hbm, ⟨12, _⟩ => ⟨S50000x16, .f32⟩
  | .hbm, ⟨13, _⟩ => ⟨S500000x1, .i32⟩
  | .hbm, ⟨14, _⟩ => ⟨S50000x16, .f32⟩
  | .hbm, ⟨15, _⟩ => ⟨S_, .f32⟩
  | .hbm, ⟨16, _⟩ => ⟨S500000, .f32⟩
  | .hbm, ⟨17, _⟩ => ⟨S_, .f32⟩
  | .hbm, ⟨18, _⟩ => ⟨S50000, .f32⟩
  | .hbm, ⟨19, _⟩ => ⟨S500000x1, .i32⟩
  | .hbm, ⟨20, _⟩ => ⟨S50000, .f32⟩
  | .hbm, ⟨21, _⟩ => ⟨S50000x1, .f32⟩
  | .hbm, ⟨22, _⟩ => ⟨S_, .f32⟩
  | .hbm, ⟨23, _⟩ => ⟨S50000x1, .f32⟩
  | .hbm, ⟨24, _⟩ => ⟨S50000x1, .i1⟩
  | .hbm, ⟨25, _⟩ => ⟨S_, .f32⟩
  | .hbm, ⟨26, _⟩ => ⟨S50000x1, .f32⟩
  | .hbm, ⟨27, _⟩ => ⟨S50000x1, .i1⟩
  | .hbm, ⟨28, _⟩ => ⟨S_, .f32⟩
  | .hbm, ⟨29, _⟩ => ⟨S_, .f32⟩
  | .hbm, ⟨30, _⟩ => ⟨S50000x1, .f32⟩
  | .hbm, ⟨31, _⟩ => ⟨S50000x1, .f32⟩
  | .hbm, ⟨32, _⟩ => ⟨S50000x16, .f32⟩
  | .hbm, ⟨33, _⟩ => ⟨S50000x16, .f32⟩
  | .hbm, ⟨34, _⟩ => ⟨S_, .f32⟩
  | .hbm, ⟨35, _⟩ => ⟨S_, .f32⟩
  | .hbm, ⟨36, _⟩ => ⟨S50000x16, .i1⟩
  | .hbm, ⟨37, _⟩ => ⟨S50000x16, .f32⟩
  | .hbm, ⟨38, _⟩ => ⟨S50000x16, .f32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000x16, .f32⟩
  | .hbm, ⟨48, _⟩ => ⟨S_, .f32⟩
  | .hbm, ⟨49, _⟩ => ⟨S10000x16, .f32⟩
  | .hbm, ⟨50, _⟩ => ⟨S500000x1, .i32⟩
  | .hbm, ⟨51, _⟩ => ⟨S10000x16, .f32⟩
  | .hbm, ⟨52, _⟩ => ⟨S_, .f32⟩
  | .hbm, ⟨53, _⟩ => ⟨S500000, .f32⟩
  | .hbm, ⟨54, _⟩ => ⟨S_, .f32⟩
  | .hbm, ⟨55, _⟩ => ⟨S10000, .f32⟩
  | .hbm, ⟨56, _⟩ => ⟨S500000x1, .i32⟩
  | .hbm, ⟨57, _⟩ => ⟨S10000, .f32⟩
  | .hbm, ⟨58, _⟩ => ⟨S10000x1, .f32⟩
  | .hbm, ⟨59, _⟩ => ⟨S_, .f32⟩
  | .hbm, ⟨60, _⟩ => ⟨S10000x1, .f32⟩
  | .hbm, ⟨61, _⟩ => ⟨S10000x1, .i1⟩
  | .hbm, ⟨62, _⟩ => ⟨S_, .f32⟩
  | .hbm, ⟨63, _⟩ => ⟨S10000x1, .f32⟩
  | .hbm, ⟨64, _⟩ => ⟨S10000x1, .i1⟩
  | .hbm, ⟨65, _⟩ => ⟨S_, .f32⟩
  | .hbm, ⟨66, _⟩ => ⟨S_, .f32⟩
  | .hbm, ⟨67, _⟩ => ⟨S10000x1, .f32⟩
  | .hbm, ⟨68, _⟩ => ⟨S10000x1, .f32⟩
  | .hbm, ⟨69, _⟩ => ⟨S10000x16, .f32⟩
  | .hbm, ⟨70, _⟩ => ⟨S10000x16, .f32⟩
  | .hbm, ⟨71, _⟩ => ⟨S_, .f32⟩
  | .hbm, ⟨72, _⟩ => ⟨S_, .f32⟩
  | .hbm, ⟨73, _⟩ => ⟨S10000x16, .i1⟩
  | .hbm, ⟨74, _⟩ => ⟨S10000x16, .f32⟩
  | .hbm, ⟨75, _⟩ => ⟨S10000x16, .f32⟩
  | .hbm, ⟨76, _⟩ => ⟨S_, .i32⟩
  | .hbm, ⟨77, _⟩ => ⟨S500000, .i32⟩
  | .hbm, ⟨78, _⟩ => ⟨S500000, .i1⟩
  | .hbm, ⟨79, _⟩ => ⟨S_, .i32⟩
  | .hbm, ⟨80, _⟩ => ⟨S500000, .i32⟩
  | .hbm, ⟨81, _⟩ => ⟨S500000, .i32⟩
  | .hbm, ⟨82, _⟩ => ⟨S500000, .i32⟩
  | .hbm, ⟨83, _⟩ => ⟨S500000x1, .i32⟩
  | .hbm, ⟨84, _⟩ => ⟨S500000x16, .f32⟩
  | .hbm, ⟨85, _⟩ => ⟨S500000x64, .f32⟩
  | .hbm, ⟨86, _⟩ => ⟨S500000x128, .f32⟩
  | .hbm, ⟨87, _⟩ => ⟨S1x128, .f32⟩
  | .hbm, ⟨88, _⟩ => ⟨S500000x128, .f32⟩
  | .hbm, ⟨89, _⟩ => ⟨S500000x128, .f32⟩
  | .hbm, ⟨90, _⟩ => ⟨S_, .f32⟩
  | .hbm, ⟨91, _⟩ => ⟨S500000x128, .f32⟩
  | .hbm, ⟨92, _⟩ => ⟨S500000x128, .f32⟩
  | .hbm, ⟨93, _⟩ => ⟨S500000x64, .f32⟩
  | .hbm, ⟨94, _⟩ => ⟨S1x64, .f32⟩
  | .hbm, ⟨95, _⟩ => ⟨S500000x64, .f32⟩
  | .hbm, ⟨96, _⟩ => ⟨S500000x64, .f32⟩
  | .hbm, ⟨97, _⟩ => ⟨S_, .f32⟩
  | .hbm, ⟨98, _⟩ => ⟨S500000x64, .f32⟩
  | .hbm, ⟨99, _⟩ => ⟨S500000x64, .f32⟩
  | .hbm, ⟨100, _⟩ => ⟨S500000x1, .f32⟩
  | .hbm, ⟨101, _⟩ => ⟨S1x1, .f32⟩
  | .hbm, ⟨102, _⟩ => ⟨S500000x1, .f32⟩
  | .hbm, ⟨103, _⟩ => ⟨S500000x1, .f32⟩
  | _, _ => ⟨S500000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_5 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_6 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_7 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_8 : Ref sig .tc := ⟨.hbm, 52, rfl⟩
abbrev main_v26 : Ref sig .tc := ⟨.hbm, 53, rfl⟩
abbrev main_cst_9 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_10 : Ref sig .tc := ⟨.hbm, 59, rfl⟩
abbrev main_v31 : Ref sig .tc := ⟨.hbm, 60, rfl⟩
abbrev main_v32 : Ref sig .tc := ⟨.hbm, 61, rfl⟩
abbrev main_cst_11 : Ref sig .tc := ⟨.hbm, 62, rfl⟩
abbrev main_v33 : Ref sig .tc := ⟨.hbm, 63, rfl⟩
abbrev main_v34 : Ref sig .tc := ⟨.hbm, 64, rfl⟩
abbrev main_cst_12 : Ref sig .tc := ⟨.hbm, 65, rfl⟩
abbrev main_call2_v0 : Ref sig .tc := ⟨.hbm, 66, rfl⟩
abbrev main_call2_v1 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_13 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v38 : Ref sig .tc := ⟨.hbm, 75, rfl⟩
abbrev main_c_14 : Ref sig .tc := ⟨.hbm, 76, rfl⟩
abbrev main_v39 : Ref sig .tc := ⟨.hbm, 77, rfl⟩
abbrev main_v40 : Ref sig .tc := ⟨.hbm, 78, rfl⟩
abbrev main_c_15 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_call4_cst : Ref sig .tc := ⟨.hbm, 90, rfl⟩
abbrev main_call4_v0 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_call5_cst : Ref sig .tc := ⟨.hbm, 97, rfl⟩
abbrev main_call5_v0 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩

abbrev nD : Nat := 1
abbrev τ : Topo := Topo.v7x

variable {F : FTy → Type} [FloatOps F]

class Facts₀ : Prop where
  bcast_S_S50000x16 : S_.BroadcastsInDim S50000x16 (![] : Fin 0 → Fin S50000x16.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x16_0_1 : S50000x1.BroadcastsInDim S50000x16 (![0, 1] : Fin 2 → Fin S50000x16.rank)
  bcast_S_S10000x16 : S_.BroadcastsInDim S10000x16 (![] : Fin 0 → Fin S10000x16.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x16_0_1 : S10000x1.BroadcastsInDim S10000x16 (![0, 1] : Fin 2 → Fin S10000x16.rank)
  concatenates_S500000x32_S500000x16_S500000x16_S500000x64_d1 : Shape.Concatenates [S500000x32, S500000x16, S500000x16] S500000x64 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  scatter_S50000x16_S500000x1_S500000x16_1_0_0_1_wf : ScatterDims.WF S50000x16 S500000x1 S500000x16 [1] [0] [0] 1
  scatter_S50000_S500000x1_S500000_n_0_0_1_wf : ScatterDims.WF S50000 S500000x1 S500000 [] [0] [0] 1
  gather_S50000x16_S500000x1_S500000x16_1_0_n_n_0_1_116_wf : GatherDims.WF S50000x16 S500000x1 S500000x16 [1] [0] [] [0] [] 1 ![1, 16]
  scatter_S10000x16_S500000x1_S500000x16_1_0_0_1_wf : ScatterDims.WF S10000x16 S500000x1 S500000x16 [1] [0] [0] 1
  scatter_S10000_S500000x1_S500000_n_0_0_1_wf : ScatterDims.WF S10000 S500000x1 S500000 [] [0] [0] 1
  gather_S10000x16_S500000x1_S500000x16_1_0_n_n_0_1_116_wf : GatherDims.WF S10000x16 S500000x1 S500000x16 [1] [0] [] [0] [] 1 ![1, 16]
  dot_S500000x64_S64x128_S500000x128_1_0_0_1_n_n_wf : DotDims.WF S500000x64 S64x128 S500000x128 [1] [0] [0] [1] [] []
  dot_S500000x128_S128x64_S500000x64_1_0_0_1_n_n_wf : DotDims.WF S500000x128 S128x64 S500000x64 [1] [0] [0] [1] [] []
  dot_S500000x64_S64x1_S500000x1_1_0_0_1_n_n_wf : DotDims.WF S500000x64 S64x1 S500000x1 [1] [0] [0] [1] [] []

variable [Facts₀]

def scatter_S50000x16_S500000x1_S500000x16_1_0_0_1 : ScatterDims S50000x16 S500000x1 S500000x16 where
  updateWindowDims := [1]
  insertedWindowDims := [0]
  scatterDimsToOperandDims := [0]
  indexVectorDim := 1
  wf := scatter_S50000x16_S500000x1_S500000x16_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x16_S500000x1_S500000x16_1_0_n_n_0_1_116 : GatherDims S50000x16 S500000x1 S500000x16 where
  offsetDims := [1]
  collapsedSliceDims := [0]
  operandBatchingDims := []
  startIndicesBatchingDims := []
  startIndexMap := [0]
  indexVectorDim := 1
  sliceSizes := ![1, 16]
  wf := gather_S50000x16_S500000x1_S500000x16_1_0_n_n_0_1_116_wf
def scatter_S10000x16_S500000x1_S500000x16_1_0_0_1 : ScatterDims S10000x16 S500000x1 S500000x16 where
  updateWindowDims := [1]
  insertedWindowDims := [0]
  scatterDimsToOperandDims := [0]
  indexVectorDim := 1
  wf := scatter_S10000x16_S500000x1_S500000x16_1_0_0_1_wf
def scatter_S10000_S500000x1_S500000_n_0_0_1 : ScatterDims S10000 S500000x1 S500000 where
  updateWindowDims := []
  insertedWindowDims := [0]
  scatterDimsToOperandDims := [0]
  indexVectorDim := 1
  wf := scatter_S10000_S500000x1_S500000_n_0_0_1_wf
def gather_S10000x16_S500000x1_S500000x16_1_0_n_n_0_1_116 : GatherDims S10000x16 S500000x1 S500000x16 where
  offsetDims := [1]
  collapsedSliceDims := [0]
  operandBatchingDims := []
  startIndicesBatchingDims := []
  startIndexMap := [0]
  indexVectorDim := 1
  sliceSizes := ![1, 16]
  wf := gather_S10000x16_S500000x1_S500000x16_1_0_n_n_0_1_116_wf
def dot_S500000x64_S64x128_S500000x128_1_0_0_1_n_n : DotDims S500000x64 S64x128 S500000x128 where
  lhsContracting := [1]
  rhsContracting := [0]
  lhsNonContracting := [0]
  rhsNonContracting := [1]
  lhsBatch := []
  rhsBatch := []
  wf := dot_S500000x64_S64x128_S500000x128_1_0_0_1_n_n_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.LibDotSum.lean ====
/-
  A matrix product's sum over the contraction index, re-indexed over the contracted extent: for the plain dimension numbers
  (left operand contracted on its columns, right operand on its rows, no batch axes) the sum over the one-axis contraction
  shape of the operands' products at the dot's operand indices is the sum over `kk : Fin K` of the left operand at
  (row of the output index, `kk`) times the right operand at (`kk`, column of the output index).
-/
import Idealize.ShloMosaic.Lib.ValueIdx
import Idealize.ShloMosaic.PureOps.Ideal.Laws

namespace Cert.Lib.DotSum

open Idealize.ShloMosaic Idealize.ShloMosaic.ValueIdx

variable {M K N : Nat} (d : DotDims ⟨2, ![M, K]⟩ ⟨2, ![K, N]⟩ ⟨2, ![M, N]⟩)

/-- The contraction shape has one axis, -/
theorem contr_rank (hlc : d.lhsContracting = [1]) : d.contr.rank = 1 := by
  rw [d.rank_contr, hlc]; rfl

/-- of the contracted extent. -/
theorem contr_size (hlc : d.lhsContracting = [1]) :
    d.contr.size ⟨0, by rw [contr_rank d hlc]; exact Nat.one_pos⟩ = K := by
  have h := d.size_contr 0 (by rw [hlc]; exact Nat.one_pos)
  rw [h, List.getElem_of_eq hlc]; rfl

/-- A coordinate of an output index depends on the axis's number only. -/
theorem out_coord (j : (⟨2, ![M, N]⟩ : Shape).Idx) (p q : Nat) (hp : p < 2) (hq : q < 2) (h : p = q) :
    (j ⟨p, hp⟩).val = (j ⟨q, hq⟩).val := by subst h; rfl

/-- The left operand's index reads the output's row on its rows, -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact out_coord j _ _ _ _ (by rw [hlb, hln]; rfl)

/-- the right operand's the output's column on its columns. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact out_coord j _ _ _ _ (by rw [hlb, hln, hrn]; rfl)

/-- THE SUM, RE-INDEXED: over the contracted extent, the left operand along the output's row times the right operand down the
    output's column. -/
theorem dot_sum (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    (∑ k : d.contr.Idx, l (d.lhsIdx j k) * r (d.rhsIdx j k)) = ∑ kk : Fin K, l (ix2 (j 0) kk) * r (ix2 kk (j 1)) := by
  have hr := contr_rank d hlc
  have hs := contr_size d hlc
  rw [← Equiv.sum_comp (contrEquiv1 d K hr hs).symm]
  refine Finset.sum_congr rfl fun kk _ => ?_
  have hk := contrEquiv1_symm_val d K hr hs kk
  have el : d.lhsIdx j ((contrEquiv1 d K hr hs).symm kk) = ix2 (j 0) kk := funext fun a => Fin.ext (by
    match a with
    | ⟨0, _⟩ => exact lhs_row d hln hlb j _
    | ⟨1, _⟩ => exact (d.lhsIdx_val_of_single hlc j _).trans hk)
  have er : d.rhsIdx j ((contrEquiv1 d K hr hs).symm kk) = ix2 kk (j 1) := funext fun a => Fin.ext (by
    match a with
    | ⟨0, _⟩ => exact (d.rhsIdx_val_of_single hrc j _).trans hk
    | ⟨1, _⟩ => exact rhs_col d hln hrn hlb hrb j _)
  rw [el, er]; rfl

end Cert.Lib.DotSum
-- ==== Proof.LibDot2.lean ====
/-
  The two matrix products read at an index as a sum over the contracted extent, for the plain dimension numbers (left
  operand contracted on its columns, right operand on its rows, no batch axes): the kernel's product into a zero
  accumulator and the host's product are both the sum over `kk` of left (row, kk) times right (kk, column).
-/
import proofs.«158090_j2594160247151_2_alg».proof.Proof.LibDotSum

namespace Cert.Lib.DotSum

open Idealize.ShloMosaic Idealize.ShloMosaic.ValueIdx

variable {M K N : Nat} (d : DotDims ⟨2, ![M, K]⟩ ⟨2, ![K, N]⟩ ⟨2, ![M, N]⟩)

/-- The kernel's matrix product into a zero accumulator. -/
theorem matmul_zero_at (hlc : d.lhsContracting = [1]) (hrc : d.rhsContracting = [0]) (hln : d.lhsNonContracting = [0])
    (hrn : d.rhsNonContracting = [1]) (hlb : d.lhsBatch = []) (hrb : d.rhsBatch = []) {φ₁ φ₂ : FTy} (prec : Option ContractPrecision)
    (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ kk : Fin K, l (ix2 p kk) * r (ix2 kk q) :=
  (Ideal.matmul_constant_zero_apply d prec l r (ix2 p q)).trans (dot_sum d hlc hrc hln hrn hlb hrb l r (ix2 p q))

/-- The host's matrix product. -/
theorem dotGeneral_at (hlc : d.lhsContracting = [1]) (hrc : d.rhsContracting = [0]) (hln : d.lhsNonContracting = [0])
    (hrn : d.rhsNonContracting = [1]) (hlb : d.lhsBatch = []) (hrb : d.rhsBatch = []) {φ₁ φ₂ : FTy} (prec : Option ContractPrecision)
    (sched : HostSchedule) (l : FVec Ideal ⟨2, ![M, K]⟩ φ₁) (r : FVec Ideal ⟨2, ![K, N]⟩ φ₂) (p : Fin M) (q : Fin N) :
    FloatOps.dotGeneral d prec sched l r (ix2 p q) = ∑ kk : Fin K, l (ix2 p kk) * r (ix2 kk q) :=
  (Ideal.dotGeneral_apply d prec sched l r (ix2 p q)).trans (dot_sum d hlc hrc hln hrn hlb hrb l r (ix2 p q))

end Cert.Lib.DotSum
-- ==== Proof.LibRows.lean ====
/-
  Rows and scalars laid under a matrix, read at an index (generic in the extents): a one-row array broadcast down the
  rows reads its row; a vector re-laid as a one-row array reads the vector; a vector broadcast first to a row and then
  down the rows reads the vector at the column; a scalar constant broadcast to any shape reads the constant.
-/
import Idealize.ShloMosaic.Lib.ValueIdx
import Idealize.ShloMosaic.Lib.Pipeline.Value
import Idealize.ShloMosaic.PureOps.Ideal.Laws

namespace Cert.Lib.Rows

open Idealize.ShloMosaic Idealize.ShloMosaic.ValueIdx

variable {α : Type}

/-- A one-row array broadcast down `m` rows reads its row. -/
theorem broadcastTo_row_apply {m n : Nat} (x : (⟨2, ![1, n]⟩ : Shape).Idx → α)
    (h : (⟨2, ![1, n]⟩ : Shape).Broadcasts ⟨2, ![m, n]⟩) (p : Fin m) (q : Fin n) :
    broadcastTo ⟨2, ![m, n]⟩ x h (ix2 p q) = x (ix2 0 q) := by
  refine broadcastTo_apply x h (ix2 p q) (ix2 0 q) fun a => ?_
  match a with
  | ⟨0, _⟩ => exact (if_pos rfl).symm
  | ⟨1, _⟩ =>
    show q.val = if n = 1 then 0 else q.val
    split
    · have := q.isLt; omega
    · rfl

/-- A vector re-laid as a one-row array reads the vector. -/
theorem shapeCast_row_apply {n : Nat} (b : (⟨1, ![n]⟩ : Shape).Idx → α)
    (h : (⟨1, ![n]⟩ : Shape).ShapeCasts ⟨2, ![1, n]⟩) (q : Fin n) :
    shapeCast ⟨2, ![1, n]⟩ b h (ix2 0 q) = b (ix1 q) := by
  refine shapeCast_apply b h (ix2 0 q) (ix1 q) ?_
  rw [Shape.rowMajor_val_one, Shape.rowMajor_val_two]
  show q.val = 0 * n + q.val
  omega

/-- A vector broadcast to a row, then down the rows, reads the vector at the column. -/
theorem rows_apply {m n : Nat} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    broadcastInDim ⟨2, ![m, n]⟩ ![0, 1] h2 (broadcastInDim ⟨2, ![1, n]⟩ ![1] h1 b) (ix2 p q) = b (ix1 q) := by
  rw [broadcastInDim_apply ![0, 1] h2 _ (ix2 p q) (ix2 0 q) (fun a => by
    match a with
    | ⟨0, _⟩ => exact (if_pos rfl).symm
    | ⟨1, _⟩ =>
      show q.val = if n = 1 then 0 else q.val
      split
      · have := q.isLt; omega
      · rfl)]
  exact broadcastInDim_apply ![1] h1 b (ix2 0 q) (ix1 q) (fun a => by
    match a with
    | ⟨0, _⟩ =>
      show q.val = if n = 1 then 0 else q.val
      split
      · have := q.isLt; omega
      · rfl)

/-- A scalar broadcast to any shape reads the scalar. -/
theorem scalar_apply {t : Shape} (x : (⟨0, ![]⟩ : Shape).Idx → α) (h : (⟨0, ![]⟩ : Shape).BroadcastsInDim t ![]) (j : t.Idx) :
    broadcastInDim t ![] h x j = x ix0 :=
  broadcastInDim_apply ![] h x j ix0 (fun a => a.elim0)

end Cert.Lib.Rows
-- ==== Proof.LibDenseRow.lean ====
/-
  One dense layer read along a row, at the exact instance (generic in the extents). A row `h` of `K` features goes to
  the row of `N` features `q ↦ (∑ kk, h kk · W (kk, q)) + b q` (`dense`); `relu z` caps a row from below at the level `z`.
  Two spellings of the layer applied to a whole array of `m` rows read, at row `p` and column `q`, as `dense` of the array's
  row `p`: the kernel's — both operands narrowed to bf16 (the identity on extended reals), multiplied into a zero
  accumulator, the bias re-laid as one row and repeated down the rows — and the host's — a plain product, the bias
  broadcast to one row and then down the rows. Each followed by a maximum against a constant array is `relu` of that.
-/
import proofs.«158090_j2594160247151_2_alg».proof.Proof.LibDot2
import proofs.«158090_j2594160247151_2_alg».proof.Proof.LibRows

namespace Cert.Lib.DenseRow

open Idealize.ShloMosaic Idealize.ShloMosaic.ValueIdx

/-- A row of `K` features through one dense layer: the row times the weight matrix, plus the bias. -/
noncomputable def dense {K N : Nat} (h : Fin K → EReal) (W : FVec Ideal ⟨2, ![K, N]⟩ .f32) (b : FVec Ideal ⟨1, ![N]⟩ .f32) :
    Fin N → EReal :=
  fun q => (∑ kk : Fin K, h kk * W (ix2 kk q)) + b (ix1 q)

/-- A row capped from below at the level `z`. -/
noncomputable def relu {N : Nat} (z : EReal) (v : Fin N → EReal) : Fin N → EReal := fun q => max (v q) z

/-- The layer of equal rows is equal. -/
theorem dense_congr {K N : Nat} {h h' : Fin K → EReal} (e : ∀ kk, h kk = h' kk) (W : FVec Ideal ⟨2, ![K, N]⟩ .f32)
    (b : FVec Ideal ⟨1, ![N]⟩ .f32) : dense h W b = dense h' W b := by
  rw [show h = h' from funext e]

section Layer

variable {m K N : Nat} (d : DotDims ⟨2, ![m, K]⟩ ⟨2, ![K, N]⟩ ⟨2, ![m, N]⟩)

/-- The kernel's layer at (row `p`, column `q`): `dense` of the input's row `p`. -/
theorem matmul_bias_at (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal ⟨2, ![m, K]⟩ .f32) (W : FVec Ideal ⟨2, ![K, N]⟩ .f32) (b : FVec Ideal ⟨1, ![N]⟩ .f32)
    (hlt : FTy.bf16.bits < FTy.f32.bits) (hsc : (⟨1, ![N]⟩ : Shape).ShapeCasts ⟨2, ![1, N]⟩)
    (hbc : (⟨2, ![1, N]⟩ : Shape).Broadcasts ⟨2, ![m, N]⟩) (p : Fin m) (q : Fin N) :
    addf (FloatOps.matmul d prec (truncf .bf16 l hlt) (truncf .bf16 W hlt) (constant ⟨2, ![m, N]⟩ .f32 0x00000000#32))
        (broadcastTo ⟨2, ![m, N]⟩ (shapeCast ⟨2, ![1, N]⟩ b hsc) hbc) (ix2 p q)
      = dense (fun kk => l (ix2 p kk)) W b q := by
  rw [addf_apply, DotSum.matmul_zero_at d hlc hrc hln hrn hlb hrb, Rows.broadcastTo_row_apply, Rows.shapeCast_row_apply]
  rfl

/-- The kernel's layer followed by a maximum against the constant `z`: `relu z` of `dense` of the input's row. -/
theorem matmul_bias_relu_at (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal ⟨2, ![m, K]⟩ .f32) (W : FVec Ideal ⟨2, ![K, N]⟩ .f32) (b : FVec Ideal ⟨1, ![N]⟩ .f32)
    (hlt : FTy.bf16.bits < FTy.f32.bits) (hsc : (⟨1, ![N]⟩ : Shape).ShapeCasts ⟨2, ![1, N]⟩)
    (hbc : (⟨2, ![1, N]⟩ : Shape).Broadcasts ⟨2, ![m, N]⟩) (z : Ideal .f32) (p : Fin m) (q : Fin N) :
    maximumf (addf (FloatOps.matmul d prec (truncf .bf16 l hlt) (truncf .bf16 W hlt) (constant ⟨2, ![m, N]⟩ .f32 0x00000000#32))
        (broadcastTo ⟨2, ![m, N]⟩ (shapeCast ⟨2, ![1, N]⟩ b hsc) hbc)) (broadcast ⟨2, ![m, N]⟩ z) (ix2 p q)
      = relu z (dense (fun kk => l (ix2 p kk)) W b) q := by
  rw [maximumf_apply, matmul_bias_at d hlc hrc hln hrn hlb hrb]
  rfl

/-- The host's layer at (row `p`, column `q`): `dense` of the input's row `p`. -/
theorem dotGeneral_bias_at (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal ⟨2, ![m, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![m, N]⟩ ![0, 1]) (p : Fin m) (q : Fin N) :
    addf (Host.dotGeneral d prec l W) (broadcastInDim ⟨2, ![m, N]⟩ ![0, 1] h2 (broadcastInDim ⟨2, ![1, N]⟩ ![1] h1 b)) (ix2 p q)
      = dense (fun kk => l (ix2 p kk)) W b q := by
  rw [addf_apply, Rows.rows_apply]
  show FloatOps.dotGeneral d prec .single l W (ix2 p q) + _ = _
  rw [DotSum.dotGeneral_at d hlc hrc hln hrn hlb hrb]
  rfl

/-- The host's layer followed by a maximum against the scalar constant `z` broadcast: `relu` of `dense` of the input's row. -/
theorem dotGeneral_bias_relu_at (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal ⟨2, ![m, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![m, N]⟩ ![0, 1])
    (z : FVec Ideal ⟨0, ![]⟩ .f32) (hz : (⟨0, ![]⟩ : Shape).BroadcastsInDim ⟨2, ![m, N]⟩ ![]) (p : Fin m) (q : Fin N) :
    maximumf (addf (Host.dotGeneral d prec l W) (broadcastInDim ⟨2, ![m, N]⟩ ![0, 1] h2 (broadcastInDim ⟨2, ![1, N]⟩ ![1] h1 b)))
        (broadcastInDim ⟨2, ![m, N]⟩ ![] hz z) (ix2 p q)
      = relu (z ix0) (dense (fun kk => l (ix2 p kk)) W b) q := by
  rw [maximumf_apply, dotGeneral_bias_at d hlc hrc hln hrn hlb hrb, Rows.scalar_apply]
  rfl

end Layer

end Cert.Lib.DenseRow
-- ==== Proof.LibConcat3.lean ====
/-
  Three arrays of equal height joined along the columns, read at (row, column) (generic in the extents): the entry comes
  from the first array where the column lies below its width, from the second where it lies in the next stretch, and from
  the third beyond, each time at the same row and at the column counted from the start of that array's stretch. The three
  cases are collected in `join3`, three rows laid end to end.
-/
import Idealize.ShloMosaic.Lib.ValueIdx
import Idealize.ShloMosaic.Lib.Pipeline.Value

namespace Cert.Lib.Concat3

open Idealize.ShloMosaic Idealize.ShloMosaic.ValueIdx

variable {α : Type}

/-- Three rows laid end to end: position `l` reads the first row below `a`, the second below `a + b`, the third beyond. -/
def join3 {a b c n : Nat} (hn : a + b + c = n) (f : Fin a → α) (g : Fin b → α) (k : Fin c → α) : Fin n → α :=
  fun l =>
    if h1 : l.val < a then f ⟨l.val, h1⟩
    else if h2 : l.val < a + b then g ⟨l.val - a, by omega⟩
    else k ⟨l.val - (a + b), by have := l.isLt; omega⟩

/-- Rows laid end to end from equal rows are equal. -/
theorem join3_congr {a b c n : Nat} (hn : a + b + c = n) {f f' : Fin a → α} {g g' : Fin b → α} {k k' : Fin c → α}
    (hf : ∀ u, f u = f' u) (hg : ∀ u, g u = g' u) (hk : ∀ u, k u = k' u) : join3 hn f g k = join3 hn f' g' k' := by
  rw [show f = f' from funext hf, show g = g' from funext hg, show k = k' from funext hk]

/-- Three arrays joined along the columns, at row `p` and column `l`: the rows `p` of the three laid end to end, at `l`. -/
theorem concatenate_cols_apply {m a b c n : Nat} (hn : a + b + c = n)
    (x : (⟨2, ![m, a]⟩ : Shape).Idx → α) (y : (⟨2, ![m, b]⟩ : Shape).Idx → α) (z : (⟨2, ![m, c]⟩ : Shape).Idx → α)
    (h : Shape.Concatenates [⟨2, ![m, a]⟩, ⟨2, ![m, b]⟩, ⟨2, ![m, c]⟩] ⟨2, ![m, n]⟩ 1) (p : Fin m) (l : Fin n) :
    concatenate ⟨2, ![m, n]⟩ 1 [⟨⟨2, ![m, a]⟩, x⟩, ⟨⟨2, ![m, b]⟩, y⟩, ⟨⟨2, ![m, c]⟩, z⟩] h (ix2 p l)
      = join3 hn (fun u => x (ix2 p u)) (fun u => y (ix2 p u)) (fun u => z (ix2 p u)) l := by
  unfold join3
  split
  · next h1 =>
    refine concatenate_apply_piece (t := ⟨2, ![m, n]⟩) 1 [⟨⟨2, ![m, a]⟩, x⟩, ⟨⟨2, ![m, b]⟩, y⟩, ⟨⟨2, ![m, c]⟩, z⟩] h (ix2 p l) 0 (Nat.zero_lt_succ _) ⟨2, ![m, a]⟩ x rfl rfl 0 rfl (ix2 p ⟨l.val, h1⟩)
      (fun d hd => ?_) ?_
    · match d with
      | ⟨0, _⟩ => rfl
      | ⟨1, _⟩ => exact absurd rfl hd
    · show 0 + l.val = l.val
      omega
  · next h1 =>
    split
    · next h2 =>
      refine concatenate_apply_piece (t := ⟨2, ![m, n]⟩) 1 [⟨⟨2, ![m, a]⟩, x⟩, ⟨⟨2, ![m, b]⟩, y⟩, ⟨⟨2, ![m, c]⟩, z⟩] h (ix2 p l) 1 (Nat.succ_lt_succ (Nat.zero_lt_succ _)) ⟨2, ![m, b]⟩ y rfl rfl a rfl
        (ix2 p ⟨l.val - a, by omega⟩) (fun d hd => ?_) ?_
      · match d with
        | ⟨0, _⟩ => rfl
        | ⟨1, _⟩ => exact absurd rfl hd
      · show a + (l.val - a) = l.val
        omega
    · next h2 =>
      refine concatenate_apply_piece (t := ⟨2, ![m, n]⟩) 1 [⟨⟨2, ![m, a]⟩, x⟩, ⟨⟨2, ![m, b]⟩, y⟩, ⟨⟨2, ![m, c]⟩, z⟩] h (ix2 p l) 2 (Nat.succ_lt_succ (Nat.succ_lt_succ (Nat.zero_lt_succ _))) ⟨2, ![m, c]⟩ z rfl rfl (a + b) rfl
        (ix2 p ⟨l.val - (a + b), by have := l.isLt; omega⟩) (fun d hd => ?_) ?_
      · match d with
        | ⟨0, _⟩ => rfl
        | ⟨1, _⟩ => exact absurd rfl hd
      · show a + b + (l.val - (a + b)) = l.val
        omega

end Cert.Lib.Concat3
-- ==== Proof.MlpSpec.lean ====
/-
  What both programs compute, as ONE function of the arrays. A row of the network's input is a row of `X` (32 features)
  followed by the same row of the two gathered segment-mean arrays (16 features each); it goes through
  Linear(64,128) + rectifier, Linear(128,64) + rectifier, Linear(64,1). The result array [500000, 1] holds, at row `r`,
  that value of row `r` of the three arrays: every entry of the result depends on ONE row of the inputs and on the weights.
  The rectifier's level is the zero word's value, kept as the word on both sides.
-/
import proofs.«158090_j2594160247151_2_alg».proof.Proof.LibDenseRow
import proofs.«158090_j2594160247151_2_alg».proof.Proof.LibConcat3

namespace Cert.Mlp

open Idealize.ShloMosaic Idealize.ShloMosaic.ValueIdx Cert.Lib.DenseRow Cert.Lib.Concat3

/-- The level the two rectifiers cap at: what the zero word denotes. -/
noncomputable abbrev zlev : EReal := FloatOps.ofBits (F := Ideal) .f32 0x00000000#32

/-- One input row through the three layers. -/
noncomputable def mlpRow (h : Fin 64 → EReal) (W1 : FVec Ideal ⟨2, ![64, 128]⟩ .f32) (b1 : FVec Ideal ⟨1, ![128]⟩ .f32)
    (W2 : FVec Ideal ⟨2, ![128, 64]⟩ .f32) (b2 : FVec Ideal ⟨1, ![64]⟩ .f32) (Wout : FVec Ideal ⟨2, ![64, 1]⟩ .f32)
    (bout : FVec Ideal ⟨1, ![1]⟩ .f32) : Fin 1 → EReal :=
  dense (relu zlev (dense (relu zlev (dense h W1 b1)) W2 b2)) Wout bout

/-- Row `r` of the network's input: row `r` of `X`, then of `A`, then of `B`. -/
noncomputable def inRow {n : Nat} (X : FVec Ideal ⟨2, ![n, 32]⟩ .f32) (A B : FVec Ideal ⟨2, ![n, 16]⟩ .f32) (r : Fin n) : Fin 64 → EReal :=
  join3 (show 32 + 16 + 16 = 64 from rfl) (fun u => X (ix2 r u)) (fun u => A (ix2 r u)) (fun u => B (ix2 r u))

/-- Rows that agree entry by entry give the same input row, whatever arrays they are rows of. -/
theorem inRow_congr {n n' : Nat} {X : FVec Ideal ⟨2, ![n, 32]⟩ .f32} {A B : FVec Ideal ⟨2, ![n, 16]⟩ .f32}
    {X' : FVec Ideal ⟨2, ![n', 32]⟩ .f32} {A' B' : FVec Ideal ⟨2, ![n', 16]⟩ .f32} {r : Fin n} {r' : Fin n'}
    (hX : ∀ u, X (ix2 r u) = X' (ix2 r' u)) (hA : ∀ u, A (ix2 r u) = A' (ix2 r' u)) (hB : ∀ u, B (ix2 r u) = B' (ix2 r' u)) :
    inRow X A B r = inRow X' A' B' r' :=
  join3_congr _ hX hA hB

/-- THE RESULT ARRAY as one function of the arrays: at (r, q), row `r` of the input through the three layers. -/
noncomputable def result (X : FVec Ideal ⟨2, ![500000, 32]⟩ .f32) (A B : FVec Ideal ⟨2, ![500000, 16]⟩ .f32)
    (W1 : FVec Ideal ⟨2, ![64, 128]⟩ .f32) (b1 : FVec Ideal ⟨1, ![128]⟩ .f32)
    (W2 : FVec Ideal ⟨2, ![128, 64]⟩ .f32) (b2 : FVec Ideal ⟨1, ![64]⟩ .f32) (Wout : FVec Ideal ⟨2, ![64, 1]⟩ .f32)
    (bout : FVec Ideal ⟨1, ![1]⟩ .f32) : FVec Ideal ⟨2, ![500000, 1]⟩ .f32 :=
  fun i => mlpRow (inRow X A B (i 0)) W1 b1 W2 b2 Wout bout (i 1)

/-- `result` at (r, q). -/
theorem result_apply (X : FVec Ideal ⟨2, ![500000, 32]⟩ .f32) (A B : FVec Ideal ⟨2, ![500000, 16]⟩ .f32)
    (W1 : FVec Ideal ⟨2, ![64, 128]⟩ .f32) (b1 : FVec Ideal ⟨1, ![128]⟩ .f32)
    (W2 : FVec Ideal ⟨2, ![128, 64]⟩ .f32) (b2 : FVec Ideal ⟨1, ![64]⟩ .f32) (Wout : FVec Ideal ⟨2, ![64, 1]⟩ .f32)
    (bout : FVec Ideal ⟨1, ![1]⟩ .f32) (r : Fin 500000) (q : Fin 1) :
    result X A B W1 b1 W2 b2 Wout bout (ix2 r q) = mlpRow (inRow X A B r) W1 b1 W2 b2 Wout bout q := rfl

end Cert.Mlp
-- ==== Proof.KernelRow.lean ====
/-
  What the kernel body stores, read at one entry. The body loads a block of 10000 rows of `X` and of the two gathered
  arrays and the weights whole, joins the three row blocks along the columns, and applies the three layers (the operands
  of each product narrowed to bf16 first, which changes nothing on extended reals; each product into a zero accumulator;
  each bias re-laid as a row and repeated down the rows; the rectifier a maximum with a splat zero). Entry (p, q) of what it
  stores is row `p` of the joined block through the three layers: `mlpRow` of that row.
-/
import proofs.«158090_j2594160247151_2_alg».proof.Proof.Gen.KernelIdeal.Skeleton
import proofs.«158090_j2594160247151_2_alg».proof.Proof.MlpSpec
import Idealize.ShloMosaic.Lib.Pipeline.Value

noncomputable section

namespace Cert.KernelIdeal.Hand

open Cert.KernelIdeal Cert.KernelIdeal.Gen Idealize.ShloMosaic Idealize.ShloMosaic.ValueIdx
open Cert.Lib.DenseRow Cert.Lib.Concat3 Cert.Mlp

/-- The stored value at (p, q): row `p` of the three loaded row blocks, joined, through the three layers. -/
theorem pay_at (v0 : FVec Ideal S10000x32 .f32) (v1 v3 : FVec Ideal S10000x16 .f32) (v6 : FVec Ideal S64x128 .f32)
    (v10 : FVec Ideal S128 .f32) (v16 : FVec Ideal S128x64 .f32) (v20 : FVec Ideal S64 .f32) (v26 : FVec Ideal S64x1 .f32)
    (v30 : FVec Ideal S1 .f32) (p : Fin 10000) (q : Fin 1) :
    k0_pay1 (F := Ideal) v0 v1 v3 v6 v10 v16 v20 v26 v30 (ix2 p q) = mlpRow (inRow v0 v1 v3 p) v6 v10 v16 v20 v26 v30 q := by
  unfold k0_pay1 mlpRow
  refine (matmul_bias_at dot_S10000x64_S64x1_S10000x1_1_0_0_1_n_n rfl rfl rfl rfl rfl rfl none _ v26 v30 _ _ _ p q).trans ?_
  refine congrFun (dense_congr (fun kk => ?_) v26 v30) q
  refine (matmul_bias_relu_at dot_S10000x128_S128x64_S10000x64_1_0_0_1_n_n rfl rfl rfl rfl rfl rfl none _ v16 v20 _ _ _ _ p kk).trans ?_
  refine congrFun (congrArg (relu zlev) (dense_congr (fun jj => ?_) v16 v20)) kk
  refine (matmul_bias_relu_at dot_S10000x64_S64x128_S10000x128_1_0_0_1_n_n rfl rfl rfl rfl rfl rfl none _ v6 v10 _ _ _ _ p jj).trans ?_
  refine congrFun (congrArg (relu zlev) (dense_congr (fun l => ?_) v6 v10)) jj
  rw [shapeCast_self, shapeCast_self]
  exact concatenate_cols_apply rfl v0 v1 v3 _ p l

end Cert.KernelIdeal.Hand

end
-- ==== Proof.KernelArray.lean ====
/-
  From the kernel's blocks to its whole result array. The grid has 50 points; point `t` works on rows
  10000·t … 10000·t + 9999: its blocks of `X` and of the two gathered arrays are those rows, its weight blocks are the
  whole weight arrays, and it writes back rows 10000·t … of the result. What it writes back at (p, q) is row `p` of its
  three row blocks through the three layers, that is row 10000·t + p of the arrays through the three layers: block `t` of
  `result` of the arrays as the region finds them. The 50 blocks tile the 500000 rows, so the array ends holding `result`.
-/
import proofs.«158090_j2594160247151_2_alg».proof.Proof.Gen.KernelIdeal.Value
import proofs.«158090_j2594160247151_2_alg».proof.Proof.KernelRow
import Idealize.ShloMosaic.Lib.Pipeline.Value

set_option maxRecDepth 16384

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 50 points: the three row windows and the output window sit at block row `t`,
    column block 0; the six weight windows always at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-! ## The input blocks, read off the arrays -/

/-- Entry (p, u) of `X`'s block at point `t` is entry (10000·t + p, u) of `X`. -/
theorem blk0_apply (c : Dev nD) (t : Fin cfg0.N) (p : Fin 10000) (u : Fin 32) (r : Fin 500000) (hr : r.val = 10000 * t.val + p.val) :
    (iblk m c 0 t : FVec Ideal S10000x32 .f32) (ix2 p u) = (V m c main_arg0 : FVec Ideal S500000x32 .f32) (ix2 r u) := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 10000 + 1 * p.val = r.val; rw [e0, hr]; omega
  | ⟨1, _⟩ => show win0_0.index t (1 : Fin 2) * 32 + 1 * u.val = u.val; rw [e1]; omega

/-- Entry (p, u) of the first gathered array's block at point `t` is its entry (10000·t + p, u). -/
theorem blk1_apply (c : Dev nD) (t : Fin cfg0.N) (p : Fin 10000) (u : Fin 16) (r : Fin 500000) (hr : r.val = 10000 * t.val + p.val) :
    (iblk m c 1 t : FVec Ideal S10000x16 .f32) (ix2 p u) = (V m c main_v22 : FVec Ideal S500000x16 .f32) (ix2 r u) := by
  obtain ⟨-, -, e0, e1, -⟩ := idx_facts t
  unfold iblk
  rw [View.read_apply]
  show V m c main_v22 _ = V m c main_v22 _
  refine congrArg (V m c main_v22) (funext fun a => Fin.ext ?_)
  match a with
  | ⟨0, _⟩ => show win0_1.index t (0 : Fin 2) * 10000 + 1 * p.val = r.val; rw [e0, hr]; omega
  | ⟨1, _⟩ => show win0_1.index t (1 : Fin 2) * 16 + 1 * u.val = u.val; rw [e1]; omega

/-- Entry (p, u) of the second gathered array's block at point `t` is its entry (10000·t + p, u). -/
theorem blk2_apply (c : Dev nD) (t : Fin cfg0.N) (p : Fin 10000) (u : Fin 16) (r : Fin 500000) (hr : r.val = 10000 * t.val + p.val) :
    (iblk m c 2 t : FVec Ideal S10000x16 .f32) (ix2 p u) = (V m c main_v45 : FVec Ideal S500000x16 .f32) (ix2 r u) := by
  obtain ⟨-, -, -, -, e0, e1, -⟩ := idx_facts t
  unfold iblk
  rw [View.read_apply]
  show V m c main_v45 _ = V m c main_v45 _
  refine congrArg (V m c main_v45) (funext fun a => Fin.ext ?_)
  match a with
  | ⟨0, _⟩ => show win0_2.index t (0 : Fin 2) * 10000 + 1 * p.val = r.val; rw [e0, hr]; omega
  | ⟨1, _⟩ => show win0_2.index t (1 : Fin 2) * 16 + 1 * u.val = u.val; rw [e1]; omega

/-- The block of `W1` at every point is `W1`. -/
theorem blk3_eq (c : Dev nD) (t : Fin cfg0.N) : (iblk m c 3 t : FVec Ideal S64x128 .f32) = (V m c main_arg5 : FVec Ideal S64x128 .f32) := by
  obtain ⟨-, -, -, -, -, -, e0, e1, -⟩ := idx_facts t
  funext y
  unfold iblk
  rw [View.read_apply]
  show V m c main_arg5 _ = V m c main_arg5 _
  refine congrArg (V m c main_arg5) (funext fun a => Fin.ext ?_)
  match a with
  | ⟨0, _⟩ => show win0_3.index t (0 : Fin 2) * 64 + 1 * (y 0).val = (y 0).val; rw [e0]; omega
  | ⟨1, _⟩ => show win0_3.index t (1 : Fin 2) * 128 + 1 * (y 1).val = (y 1).val; rw [e1]; omega

/-- The block of `b1` at every point is `b1`. -/
theorem blk4_eq (c : Dev nD) (t : Fin cfg0.N) : (iblk m c 4 t : FVec Ideal S128 .f32) = (V m c main_arg6 : FVec Ideal S128 .f32) := by
  obtain ⟨-, -, -, -, -, -, -, -, e0, -⟩ := idx_facts t
  funext y
  unfold iblk
  rw [View.read_apply]
  show V m c main_arg6 _ = V m c main_arg6 _
  refine congrArg (V m c main_arg6) (funext fun a => Fin.ext ?_)
  match a with
  | ⟨0, _⟩ => show win0_4.index t (0 : Fin 1) * 128 + 1 * (y 0).val = (y 0).val; rw [e0]; omega

/-- The block of `W2` at every point is `W2`. -/
theorem blk5_eq (c : Dev nD) (t : Fin cfg0.N) : (iblk m c 5 t : FVec Ideal S128x64 .f32) = (V m c main_arg7 : FVec Ideal S128x64 .f32) := by
  obtain ⟨-, -, -, -, -, -, -, -, -, e0, e1, -⟩ := idx_facts t
  funext y
  unfold iblk
  rw [View.read_apply]
  show V m c main_arg7 _ = V m c main_arg7 _
  refine congrArg (V m c main_arg7) (funext fun a => Fin.ext ?_)
  match a with
  | ⟨0, _⟩ => show win0_5.index t (0 : Fin 2) * 128 + 1 * (y 0).val = (y 0).val; rw [e0]; omega
  | ⟨1, _⟩ => show win0_5.index t (1 : Fin 2) * 64 + 1 * (y 1).val = (y 1).val; rw [e1]; omega

/-- The block of `b2` at every point is `b2`. -/
theorem blk6_eq (c : Dev nD) (t : Fin cfg0.N) : (iblk m c 6 t : FVec Ideal S64 .f32) = (V m c main_arg8 : FVec Ideal S64 .f32) := by
  obtain ⟨-, -, -, -, -, -, -, -, -, -, -, e0, -⟩ := idx_facts t
  funext y
  unfold iblk
  rw [View.read_apply]
  show V m c main_arg8 _ = V m c main_arg8 _
  refine congrArg (V m c main_arg8) (funext fun a => Fin.ext ?_)
  match a with
  | ⟨0, _⟩ => show win0_6.index t (0 : Fin 1) * 64 + 1 * (y 0).val = (y 0).val; rw [e0]; omega

/-- The block of `Wout` at every point is `Wout`. -/
theorem blk7_eq (c : Dev nD) (t : Fin cfg0.N) : (iblk m c 7 t : FVec Ideal S64x1 .f32) = (V m c main_arg9 : FVec Ideal S64x1 .f32) := by
  obtain ⟨-, -, -, -, -, -, -, -, -, -, -, -, e0, e1, -⟩ := idx_facts t
  funext y
  unfold iblk
  rw [View.read_apply]
  show V m c main_arg9 _ = V m c main_arg9 _
  refine congrArg (V m c main_arg9) (funext fun a => Fin.ext ?_)
  match a with
  | ⟨0, _⟩ => show win0_7.index t (0 : Fin 2) * 64 + 1 * (y 0).val = (y 0).val; rw [e0]; omega
  | ⟨1, _⟩ => show win0_7.index t (1 : Fin 2) * 1 + 1 * (y 1).val = (y 1).val; rw [e1]; omega

/-- The block of `bout` at every point is `bout`. -/
theorem blk8_eq (c : Dev nD) (t : Fin cfg0.N) : (iblk m c 8 t : FVec Ideal S1 .f32) = (V m c main_arg10 : FVec Ideal S1 .f32) := by
  obtain ⟨-, -, -, -, -, -, -, -, -, -, -, -, -, -, e0, -⟩ := idx_facts t
  funext y
  unfold iblk
  rw [View.read_apply]
  show V m c main_arg10 _ = V m c main_arg10 _
  refine congrArg (V m c main_arg10) (funext fun a => Fin.ext ?_)
  match a with
  | ⟨0, _⟩ => show win0_8.index t (0 : Fin 1) * 1 + 1 * (y 0).val = (y 0).val; rw [e0]; omega

/-! ## What a point writes back, the cover, the array -/

/-- The result of the arrays as the region finds them. -/
abbrev resultV (c : Dev nD) : FVec Ideal S500000x1 .f32 :=
  result (V m c main_arg0) (V m c main_v22) (V m c main_v45) (V m c main_arg5) (V m c main_arg6) (V m c main_arg7)
    (V m c main_arg8) (V m c main_arg9) (V m c main_arg10)

/-- One entry of what point `t` stores: the entry of `result` at row 10000·t + p. Stated over the blocks as variables, with
    what each block is as a hypothesis. -/
theorem point_entry (x0 : FVec Ideal S10000x32 .f32) (x1 x2 : FVec Ideal S10000x16 .f32) (x3 : FVec Ideal S64x128 .f32)
    (x4 : FVec Ideal S128 .f32) (x5 : FVec Ideal S128x64 .f32) (x6 : FVec Ideal S64 .f32) (x7 : FVec Ideal S64x1 .f32)
    (x8 : FVec Ideal S1 .f32) (X : FVec Ideal S500000x32 .f32) (A B : FVec Ideal S500000x16 .f32) (p : Fin 10000) (q : Fin 1)
    (r : Fin 500000) (h0 : ∀ u, x0 (ix2 p u) = X (ix2 r u)) (h1 : ∀ u, x1 (ix2 p u) = A (ix2 r u))
    (h2 : ∀ u, x2 (ix2 p u) = B (ix2 r u)) :
    k0_pay1 (F := Ideal) x0 x1 x2 x3 x4 x5 x6 x7 x8 (ix2 p q) = result X A B x3 x4 x5 x6 x7 x8 (ix2 r q) := by
  rw [pay_at, result_apply, inRow_congr h0 h1 h2]

/-- WHAT POINT `t` WRITES BACK is block `t` of `result` of the arrays as the region finds them. -/
theorem flushed_eq (c : Dev nD) (t : Fin cfg0.N) :
    (dats m 0 c).flushed 9 t = ((cfg0.win 9).blk t).view.read (Elt Ideal) (resultV m c) := by
  rw [Value.flushed9]
  unfold out0_9
  rw [View.canon_unit_zero hz2]
  simp only [View.ld_unit_zero (S := S10000x32) hz2, View.ld_unit_zero (S := S10000x16) hz2, View.ld_unit_zero (S := S64x128) hz2,
    View.ld_unit_zero (S := S128) hz1, View.ld_unit_zero (S := S128x64) hz2, View.ld_unit_zero (S := S64) hz1,
    View.ld_unit_zero (S := S64x1) hz2, View.ld_unit_zero (S := S1) hz1]
  obtain ⟨-, -, -, -, -, -, -, -, -, -, -, -, -, -, -, e0, e1⟩ := idx_facts t
  have hN : cfg0.N = 50 := N_0
  funext y
  obtain ⟨p, q, rfl⟩ : ∃ (p : Fin 10000) (q : Fin 1), y = ix2 p q := ⟨y 0, y 1, eq_ix2 y⟩
  have hr : 10000 * t.val + p.val < 500000 := by have := t.isLt; have := p.isLt; omega
  have he : ((cfg0.win 9).blk t).view.emb (ix2 p q) = ix2 (⟨10000 * t.val + p.val, hr⟩ : Fin 500000) q :=
    funext fun a => Fin.ext (by
      match a with
      | ⟨0, _⟩ => show win0_9.index t (0 : Fin 2) * 10000 + 1 * p.val = 10000 * t.val + p.val; rw [e0]; omega
      | ⟨1, _⟩ => show win0_9.index t (1 : Fin 2) * 1 + 1 * q.val = q.val; rw [e1]; omega)
  show k0_pay1 (F := Ideal) (iblk m c 0 t) (iblk m c 1 t) (iblk m c 2 t) (iblk m c 3 t) (iblk m c 4 t) (iblk m c 5 t) (iblk m c 6 t)
      (iblk m c 7 t) (iblk m c 8 t) (ix2 p q) = resultV m c (((cfg0.win 9).blk t).view.emb (ix2 p q))
  rw [he, blk3_eq, blk4_eq, blk5_eq, blk6_eq, blk7_eq, blk8_eq]
  exact point_entry (iblk m c 0 t) (iblk m c 1 t) (iblk m c 2 t) _ _ _ _ _ _ _ _ _ p q _
    (fun u => blk0_apply m c t p u _ rfl) (fun u => blk1_apply m c t p u _ rfl) (fun u => blk2_apply m c t p u _ rfl)

/-- An index of the result array is in point `t`'s block iff each coordinate is in the block's range on its axis. -/
theorem mem_blk (t : Fin cfg0.N) (i : S500000x1.Idx) :
    i ∈ ((cfg0.win 9).blk t).view.set ↔ ∀ a : Fin 2, win0_9.index t a * S10000x1.size a ≤ (i a).val ∧ (i a).val < win0_9.index t a * S10000x1.size a + S10000x1.size a := by
  show i ∈ ((View.whole main_v46).slice (win0_9.rect t)).set ↔ _
  rw [View.set_slice_whole, Rect.mem_set_unit]
  exact Iff.rfl

/-- Every row of the result lies in the block of the point numbered by the row's ten-thousands. -/
theorem cover (i : S500000x1.Idx) : ∃ t : Fin cfg0.N, (cfg0.win 9).flush t = true ∧ i ∈ ((cfg0.win 9).blk t).view.set := by
  have hN : cfg0.N = 50 := N_0
  have hi0 : (i 0).val < 500000 := (i 0).isLt
  have hi1 : (i 1).val < 1 := (i 1).isLt
  have ht : (i 0).val / 10000 < cfg0.N := by rw [hN]; omega
  obtain ⟨-, -, -, -, -, -, -, -, -, -, -, -, -, -, -, e0, e1⟩ := idx_facts ⟨(i 0).val / 10000, ht⟩
  refine ⟨⟨(i 0).val / 10000, ht⟩, flush0_9 _, ?_⟩
  rw [mem_blk]
  intro a
  match a with
  | ⟨0, _⟩ =>
    show win0_9.index ⟨(i 0).val / 10000, ht⟩ (0 : Fin 2) * 10000 ≤ (i 0).val ∧ (i 0).val < win0_9.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win0_9.index ⟨(i 0).val / 10000, ht⟩ (1 : Fin 2) * 1 ≤ (i 1).val ∧ (i 1).val < win0_9.index ⟨(i 0).val / 10000, ht⟩ (1 : Fin 2) * 1 + 1
    rw [e1]
    omega

/-- THE RESULT ARRAY after the run: `result` of the arrays as the region finds them. -/
theorem final (c : Dev nD) : (dats m 0 c).arrAt 9 cfg0.N = resultV m c :=
  (dats m 0 c).arrAt_eq_of_cover 9 (resultV m c) (fun t _ => flushed_eq m c t) cover

end Cert.KernelIdeal.Hand

end
-- ==== Proof.Segments.lean ====
/-
  The host chain both programs run before anything else, carried as ONE function per categorical input and never opened:
  from the row labels `z` and the per-row embeddings `e` it forms the per-segment sums of `e` and the per-segment row
  counts (two accumulating scatters), divides each segment's sum by its count where the count is positive (zero
  elsewhere), and gathers, for every row, the mean of that row's segment (a negative label wrapped by the segment count
  first). Both programs print the same operations with the same dimension records, so the two texts are one term.
  The 50000-segment chain is `segMean0`, the 10000-segment one `segMean1`.
-/
import proofs.«158090_j2594160247151_2_alg».proof.ReferenceIdeal

noncomputable section

namespace Cert.ReferenceIdeal.Hand

open Cert.ReferenceIdeal Idealize.ShloMosaic Idealize.ShloMosaic.TcCoe

variable {F : FTy → Type} [FloatOps F]
variable [Cert.ReferenceIdeal.Facts]
open Cert.ReferenceIdeal.Facts₀ Cert.ReferenceIdeal.Facts

/-- Every row's segment mean over 50000 segments, as one function of the labels and the embeddings. -/
def segMean0 (z : (⟨S500000, .i32⟩ : BufTy).Contents (Elt F)) (e : (⟨S500000x16, .f32⟩ : BufTy).Contents (Elt F)) :
    (⟨S500000x16, .f32⟩ : BufTy).Contents (Elt F) :=
  (Host.gather gather_S50000x16_S500000x1_S500000x16_1_0_n_n_0_1_116 (select (broadcastInDim S50000x16 ![0, 1] bcast_S50000x1_S50000x16_0_1 (cmpf .ogt
    (broadcastInDim S50000x1 ![0] bcast_S50000_S50000x1_0 (Host.scatterAdd scatter_S50000_S500000x1_S500000_n_0_0_1 (broadcastInDim S50000 ![]
    bcast_S_S50000 (constant (F := F) S_ .f32 0x00000000#32)) (broadcastInDim S500000x1 ![0] bcast_S500000_S500000x1_0 z) (broadcastInDim S500000 ![]
    bcast_S_S500000 (constant (F := F) S_ .f32 0x3F800000#32)))) (broadcastInDim S50000x1 ![] bcast_S_S50000x1 (constant (F := F) S_ .f32
    0x00000000#32)))) (Host.divf (Host.scatterAdd scatter_S50000x16_S500000x1_S500000x16_1_0_0_1 (broadcastInDim S50000x16 ![] bcast_S_S50000x16
    (constant (F := F) S_ .f32 0x00000000#32)) (broadcastInDim S500000x1 ![0] bcast_S500000_S500000x1_0 z) e) (broadcastInDim S50000x16 ![0, 1]
    bcast_S50000x1_S50000x16_0_1 (select (cmpf .ogt (broadcastInDim S50000x1 ![0] bcast_S50000_S50000x1_0 (Host.scatterAdd
    scatter_S50000_S500000x1_S500000_n_0_0_1 (broadcastInDim S50000 ![] bcast_S_S50000 (constant (F := F) S_ .f32 0x00000000#32)) (broadcastInDim
    S500000x1 ![0] bcast_S500000_S500000x1_0 z) (broadcastInDim S500000 ![] bcast_S_S500000 (constant (F := F) S_ .f32 0x3F800000#32))))
    (broadcastInDim S50000x1 ![] bcast_S_S50000x1 (constant (F := F) S_ .f32 0x00000000#32))) (broadcastInDim S50000x1 ![0] bcast_S50000_S50000x1_0
    (Host.scatterAdd scatter_S50000_S500000x1_S500000_n_0_0_1 (broadcastInDim S50000 ![] bcast_S_S50000 (constant (F := F) S_ .f32 0x00000000#32))
    (broadcastInDim S500000x1 ![0] bcast_S500000_S500000x1_0 z) (broadcastInDim S500000 ![] bcast_S_S500000 (constant (F := F) S_ .f32
    0x3F800000#32)))) (broadcastInDim S50000x1 ![] bcast_S_S50000x1 (id (constant (F := F) S_ .f32 0x3F800000#32)))))) (broadcastInDim S50000x16 ![]
    bcast_S_S50000x16 (id (constant (F := F) S_ .f32 0x00000000#32)))) (broadcastInDim S500000x1 ![0] bcast_S500000_S500000x1_0 (select (cmpi .slt z
    (broadcastInDim S500000 ![] bcast_S_S500000 (constantI S_ 32 0#32))) (addi z (broadcastInDim S500000 ![] bcast_S_S500000 (constantI S_ 32
    50000#32))) z)))

/-- Every row's segment mean over 10000 segments, as one function of the labels and the embeddings. -/
def segMean1 (z : (⟨S500000, .i32⟩ : BufTy).Contents (Elt F)) (e : (⟨S500000x16, .f32⟩ : BufTy).Contents (Elt F)) :
    (⟨S500000x16, .f32⟩ : BufTy).Contents (Elt F) :=
  (Host.gather gather_S10000x16_S500000x1_S500000x16_1_0_n_n_0_1_116 (select (broadcastInDim S10000x16 ![0, 1] bcast_S10000x1_S10000x16_0_1 (cmpf .ogt
    (broadcastInDim S10000x1 ![0] bcast_S10000_S10000x1_0 (Host.scatterAdd scatter_S10000_S500000x1_S500000_n_0_0_1 (broadcastInDim S10000 ![]
    bcast_S_S10000 (constant (F := F) S_ .f32 0x00000000#32)) (broadcastInDim S500000x1 ![0] bcast_S500000_S500000x1_0 z) (broadcastInDim S500000 ![]
    bcast_S_S500000 (constant (F := F) S_ .f32 0x3F800000#32)))) (broadcastInDim S10000x1 ![] bcast_S_S10000x1 (constant (F := F) S_ .f32
    0x00000000#32)))) (Host.divf (Host.scatterAdd scatter_S10000x16_S500000x1_S500000x16_1_0_0_1 (broadcastInDim S10000x16 ![] bcast_S_S10000x16
    (constant (F := F) S_ .f32 0x00000000#32)) (broadcastInDim S500000x1 ![0] bcast_S500000_S500000x1_0 z) e) (broadcastInDim S10000x16 ![0, 1]
    bcast_S10000x1_S10000x16_0_1 (select (cmpf .ogt (broadcastInDim S10000x1 ![0] bcast_S10000_S10000x1_0 (Host.scatterAdd
    scatter_S10000_S500000x1_S500000_n_0_0_1 (broadcastInDim S10000 ![] bcast_S_S10000 (constant (F := F) S_ .f32 0x00000000#32)) (broadcastInDim
    S500000x1 ![0] bcast_S500000_S500000x1_0 z) (broadcastInDim S500000 ![] bcast_S_S500000 (constant (F := F) S_ .f32 0x3F800000#32))))
    (broadcastInDim S10000x1 ![] bcast_S_S10000x1 (constant (F := F) S_ .f32 0x00000000#32))) (broadcastInDim S10000x1 ![0] bcast_S10000_S10000x1_0
    (Host.scatterAdd scatter_S10000_S500000x1_S500000_n_0_0_1 (broadcastInDim S10000 ![] bcast_S_S10000 (constant (F := F) S_ .f32 0x00000000#32))
    (broadcastInDim S500000x1 ![0] bcast_S500000_S500000x1_0 z) (broadcastInDim S500000 ![] bcast_S_S500000 (constant (F := F) S_ .f32
    0x3F800000#32)))) (broadcastInDim S10000x1 ![] bcast_S_S10000x1 (id (constant (F := F) S_ .f32 0x3F800000#32)))))) (broadcastInDim S10000x16 ![]
    bcast_S_S10000x16 (id (constant (F := F) S_ .f32 0x00000000#32)))) (broadcastInDim S500000x1 ![0] bcast_S500000_S500000x1_0 (select (cmpi .slt z
    (broadcastInDim S500000 ![] bcast_S_S500000 (constantI S_ 32 0#32))) (addi z (broadcastInDim S500000 ![] bcast_S_S500000 (constantI S_ 32
    10000#32))) z)))

end Cert.ReferenceIdeal.Hand

end
-- ==== Proof.KernelPrefix.lean ====
/-
  What the kernel's region finds in its two gathered operands. Before its one region the kernel's program runs the same
  host chain as the reference (segment sums and counts, the guarded division, the gather), on the same arguments; the
  arrays the region's second and third windows read are therefore the two segment-mean arrays, `segMean0` of the first
  labels and embeddings and `segMean1` of the second: the host operations' results composed, one after the other.
-/
import proofs.«158090_j2594160247151_2_alg».proof.Proof.Gen.KernelIdeal.Frame
import proofs.«158090_j2594160247151_2_alg».proof.Proof.Segments
import proofs.«158090_j2594160247151_2_alg».proof.Proof.Gen.ReferenceIdeal
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 4000000 in
/-- The region's second window reads the 50000-segment means of the first labels and embeddings. -/
theorem V_main_v22 (c : Dev nD) :
    (V m c main_v22 : (⟨S500000x16, .f32⟩ : BufTy).Contents (Elt F))
      = Cert.ReferenceIdeal.Hand.segMean0 (F := F) (m ((c : Thread nD τ).loc main_arg1)) (m ((c : Thread nD τ).loc main_arg3)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  unfold Cert.ReferenceIdeal.Hand.segMean0
  rfl

set_option maxHeartbeats 4000000 in
/-- The region's third window reads the 10000-segment means of the second labels and embeddings. -/
theorem V_main_v45 (c : Dev nD) :
    (V m c main_v45 : (⟨S500000x16, .f32⟩ : BufTy).Contents (Elt F))
      = Cert.ReferenceIdeal.Hand.segMean1 (F := F) (m ((c : Thread nD τ).loc main_arg2)) (m ((c : Thread nD τ).loc main_arg4)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  unfold Cert.ReferenceIdeal.Hand.segMean1
  rfl

end Cert.KernelIdeal.Hand

end
-- ==== Proof.KernelValue.lean ====
/-
  The kernel's run, read: its result array ends holding `result` of the argument arrays — of `X`, of the two segment-mean
  arrays of the labels and embeddings, and of the six weight arrays —, the arguments unchanged. (The region finds the
  arguments as launched, and its two gathered operands at the segment means.)
-/
import proofs.«158090_j2594160247151_2_alg».proof.Proof.KernelArray
import proofs.«158090_j2594160247151_2_alg».proof.Proof.KernelPrefix

noncomputable section

namespace Cert.KernelIdeal.Hand

open Cert.KernelIdeal Cert.KernelIdeal.Gen Cert.KernelIdeal.Value Idealize.ShloMosaic Idealize.ShloMosaic.TcCoe Idealize.SL.Sem
open Cert.Mlp

variable (m : (ℓ : Loc nD τ sig) → Buf (Elt Ideal) ℓ) (ρ : Dev nD → PrngReg)

/-- The network's result of the launch contents. -/
abbrev resultM (c : Dev nD) : FVec Ideal S500000x1 .f32 :=
  result (m ((c : Thread Cert.KernelIdeal.nD Cert.KernelIdeal.τ).loc Cert.KernelIdeal.main_arg0))
      (Cert.ReferenceIdeal.Hand.segMean0 (F := Ideal) (m ((c : Thread Cert.KernelIdeal.nD Cert.KernelIdeal.τ).loc Cert.KernelIdeal.main_arg1)) (m ((c : Thread Cert.KernelIdeal.nD Cert.KernelIdeal.τ).loc Cert.KernelIdeal.main_arg3)))
      (Cert.ReferenceIdeal.Hand.segMean1 (F := Ideal) (m ((c : Thread Cert.KernelIdeal.nD Cert.KernelIdeal.τ).loc Cert.KernelIdeal.main_arg2)) (m ((c : Thread Cert.KernelIdeal.nD Cert.KernelIdeal.τ).loc Cert.KernelIdeal.main_arg4)))
      (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7))
      (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10))

/-- The result array after the run, in terms of the launch contents. -/
theorem final_args (c : Dev nD) : (dats m 0 c).arrAt 9 cfg0.N = resultM m c := by
  rw [final m c]
  unfold resultV resultM
  rw [V_main_arg0 m c, V_main_v22 m c, V_main_v45 m c, V_main_arg5 m c, V_main_arg6 m c, V_main_arg7 m c, V_main_arg8 m c,
    V_main_arg9 m c, V_main_arg10 m c]

/-- The run, read: the result array at `result` of the launch contents, the arguments unchanged. -/
theorem run : θ_run defs (onTc (τ := τ) (main (F := Ideal))) ⟨m, fun _ => 0, ρ⟩ fun r => ∀ c : Dev nD,
      r.2.mem ((c : Thread nD τ).loc main_v46) = resultM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_args m c), (h c).2⟩) (Value.run_blocks m ρ)

end Cert.KernelIdeal.Hand

end
-- ==== Proof.RefRow.lean ====
/-
  The reference's three layers over whole arrays, read at one entry. After the shared host chain the reference joins `X`
  and the two gathered arrays along the columns into [500000, 64] and applies, to all rows at once, a product with `W1`
  plus `b1` (broadcast to a row, then down the rows), a maximum with a broadcast zero, the same with `W2`, `b2`, and a
  product with `Wout` plus `bout`. At the exact instance each product's entry is the plain sum over the contracted
  extent, so entry (r, q) is row `r` of the joined array through the three layers: `result` of the arrays.
-/
import proofs.«158090_j2594160247151_2_alg».proof.ReferenceIdeal
import proofs.«158090_j2594160247151_2_alg».proof.Proof.MlpSpec

noncomputable section

namespace Cert.ReferenceIdeal.Hand

open Cert.ReferenceIdeal Idealize.ShloMosaic Idealize.ShloMosaic.TcCoe Idealize.ShloMosaic.ValueIdx
open Cert.Lib.DenseRow Cert.Lib.Concat3 Cert.Mlp

section
variable {F : FTy → Type} [FloatOps F]
variable [Cert.ReferenceIdeal.Facts]
open Cert.ReferenceIdeal.Facts₀ Cert.ReferenceIdeal.Facts

/-- The reference's operations after the shared host chain, over whole arrays: join, three layers. -/
def refLayers (X : (⟨S500000x32, .f32⟩ : BufTy).Contents (Elt F)) (A B : (⟨S500000x16, .f32⟩ : BufTy).Contents (Elt F))
    (W1 : (⟨S64x128, .f32⟩ : BufTy).Contents (Elt F)) (b1 : (⟨S128, .f32⟩ : BufTy).Contents (Elt F))
    (W2 : (⟨S128x64, .f32⟩ : BufTy).Contents (Elt F)) (b2 : (⟨S64, .f32⟩ : BufTy).Contents (Elt F))
    (Wout : (⟨S64x1, .f32⟩ : BufTy).Contents (Elt F)) (bout : (⟨S1, .f32⟩ : BufTy).Contents (Elt F)) :
    (⟨S500000x1, .f32⟩ : BufTy).Contents (Elt F) :=
  addf (Host.dotGeneral dot_S500000x64_S64x1_S500000x1_1_0_0_1_n_n none
      (maximumf (addf (Host.dotGeneral dot_S500000x128_S128x64_S500000x64_1_0_0_1_n_n none
          (maximumf (addf (Host.dotGeneral dot_S500000x64_S64x128_S500000x128_1_0_0_1_n_n none
              (concatenate S500000x64 1 [⟨S500000x32, X⟩, ⟨S500000x16, A⟩, ⟨S500000x16, B⟩] concatenates_S500000x32_S500000x16_S500000x16_S500000x64_d1) W1)
              (broadcastInDim S500000x128 ![0, 1] bcast_S1x128_S500000x128_0_1 (broadcastInDim S1x128 ![1] bcast_S128_S1x128_1 b1)))
            (broadcastInDim S500000x128 ![] bcast_S_S500000x128 (constant (F := F) S_ .f32 0x00000000#32))) W2)
          (broadcastInDim S500000x64 ![0, 1] bcast_S1x64_S500000x64_0_1 (broadcastInDim S1x64 ![1] bcast_S64_S1x64_1 b2)))
        (broadcastInDim S500000x64 ![] bcast_S_S500000x64 (constant (F := F) S_ .f32 0x00000000#32))) Wout)
    (broadcastInDim S500000x1 ![0, 1] bcast_S1x1_S500000x1_0_1 (broadcastInDim S1x1 ![1] bcast_S1_S1x1_1 bout))

end

variable [Cert.ReferenceIdeal.Facts]
open Cert.ReferenceIdeal.Facts₀ Cert.ReferenceIdeal.Facts

/-- Entry (r, q) of the reference's layers: row `r` of the joined arrays through the three layers. -/
theorem refLayers_at (X : FVec Ideal S500000x32 .f32) (A B : FVec Ideal S500000x16 .f32) (W1 : FVec Ideal S64x128 .f32)
    (b1 : FVec Ideal S128 .f32) (W2 : FVec Ideal S128x64 .f32) (b2 : FVec Ideal S64 .f32) (Wout : FVec Ideal S64x1 .f32)
    (bout : FVec Ideal S1 .f32) (r : Fin 500000) (q : Fin 1) :
    refLayers (F := Ideal) X A B W1 b1 W2 b2 Wout bout (ix2 r q) = mlpRow (inRow X A B r) W1 b1 W2 b2 Wout bout q := by
  unfold refLayers mlpRow
  refine (dotGeneral_bias_at dot_S500000x64_S64x1_S500000x1_1_0_0_1_n_n rfl rfl rfl rfl rfl rfl none _ Wout bout _ _ r q).trans ?_
  refine congrFun (dense_congr (fun kk => ?_) Wout bout) q
  refine (dotGeneral_bias_relu_at dot_S500000x128_S128x64_S500000x64_1_0_0_1_n_n rfl rfl rfl rfl rfl rfl none _ W2 b2 _ _ _ _ r kk).trans ?_
  refine congrFun (congrArg (relu zlev) (dense_congr (fun jj => ?_) W2 b2)) kk
  refine (dotGeneral_bias_relu_at dot_S500000x64_S64x128_S500000x128_1_0_0_1_n_n rfl rfl rfl rfl rfl rfl none _ W1 b1 _ _ _ _ r jj).trans ?_
  refine congrFun (congrArg (relu zlev) (dense_congr (fun l => ?_) W1 b1)) jj
  exact concatenate_cols_apply rfl X A B _ r l

/-- The reference's layers ARE `result` of the arrays. -/
theorem refLayers_eq (X : FVec Ideal S500000x32 .f32) (A B : FVec Ideal S500000x16 .f32) (W1 : FVec Ideal S64x128 .f32)
    (b1 : FVec Ideal S128 .f32) (W2 : FVec Ideal S128x64 .f32) (b2 : FVec Ideal S64 .f32) (Wout : FVec Ideal S64x1 .f32)
    (bout : FVec Ideal S1 .f32) :
    refLayers (F := Ideal) X A B W1 b1 W2 b2 Wout bout = result X A B W1 b1 W2 b2 Wout bout := by
  funext i
  obtain ⟨r, q, rfl⟩ : ∃ (r : Fin 500000) (q : Fin 1), i = ix2 r q := ⟨i 0, i 1, eq_ix2 i⟩
  rw [result_apply]
  exact refLayers_at X A B W1 b1 W2 b2 Wout bout r q

end Cert.ReferenceIdeal.Hand

end
-- ==== Proof.RefValue.lean ====
/-
  The reference's run, read: its result array ends holding `result` of the argument arrays. The composed term of its 93
  host operations is the shared host chain (the two segment-mean arrays) followed by the join and the three layers over
  whole arrays; the layers are `result` entry by entry.
-/
import proofs.«158090_j2594160247151_2_alg».proof.Proof.RefRun
import proofs.«158090_j2594160247151_2_alg».proof.Proof.RefRow
import proofs.«158090_j2594160247151_2_alg».proof.Proof.Segments

set_option maxRecDepth 16384

noncomputable section

namespace Cert.ReferenceIdeal.Hand

open Cert.ReferenceIdeal Cert.ReferenceIdeal.Gen Idealize.ShloMosaic Idealize.ShloMosaic.TcCoe Idealize.SL.Sem
open Cert.Mlp

/-- The run's result term is the three layers over the arguments and the two segment-mean arrays. -/
theorem res_eq_layers {F : FTy → Type} [FloatOps F] (m : (ℓ : Loc nD τ sig) → Buf (Elt F) ℓ) (c : Dev nD) :
    Cert.ReferenceIdeal.ValueP.res_main_v60 m c
      = refLayers (F := F) (m ((c.tc : Thread nD τ).loc main_arg0))
          (segMean0 (F := F) (m ((c.tc : Thread nD τ).loc main_arg1)) (m ((c.tc : Thread nD τ).loc main_arg3)))
          (segMean1 (F := F) (m ((c.tc : Thread nD τ).loc main_arg2)) (m ((c.tc : Thread nD τ).loc main_arg4)))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  unfold Cert.ReferenceIdeal.ValueP.res_main_v60 refLayers segMean0 segMean1
  rfl

/-- At the exact instance the run's result term is `result` of the launch contents. -/
theorem res_eq (m : (ℓ : Loc nD τ sig) → Buf (Elt Ideal) ℓ) (c : Dev nD) :
    Cert.ReferenceIdeal.ValueP.res_main_v60 m c
      = result (m ((c.tc : Thread nD τ).loc main_arg0))
          (segMean0 (F := Ideal) (m ((c.tc : Thread nD τ).loc main_arg1)) (m ((c.tc : Thread nD τ).loc main_arg3)))
          (segMean1 (F := Ideal) (m ((c.tc : Thread nD τ).loc main_arg2)) (m ((c.tc : Thread nD τ).loc main_arg4)))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) :=
  (res_eq_layers m c).trans (refLayers_eq _ _ _ _ _ _ _ _ _)

end Cert.ReferenceIdeal.Hand

end
-- ==== Proof.lean ====
/-
  A three-layer perceptron over 500000 rows, each row the 32 features of `X` followed by two 16-feature segment means
  (the mean of the row's segment under each of two labelings, computed by a host chain of scatters, a guarded division
  and a gather that the kernel's program and the reference share). The kernel streams the rows through a one-region
  pipeline, 10000 rows per grid point, with both operands of every product narrowed to bf16; the reference applies the
  same three layers to all rows at once in f32. On extended reals narrowing is the identity and a product's entry is the
  plain sum over the contracted extent, so both result arrays hold, at row `r`, the value of ONE function (`Cert.Mlp.mlpRow`)
  of row `r` of the three input arrays and of the weights: the kernel's because every point's block is 10000 consecutive
  rows and the 50 blocks tile the array, the reference's entry by entry. No law beyond reading each operation at an index
  is used, and none that needs finite inputs: the precondition is never opened.
  The ideal pass rewrote nothing, so `preserves` is trivial; the three frames are the generated frame certificates and
  the reference's run with its result dropped.
-/
import proofs.«158090_j2594160247151_2_alg».proof.Defs
import proofs.«158090_j2594160247151_2_alg».proof.Proof.Gen.Kernel
import proofs.«158090_j2594160247151_2_alg».proof.Proof.Gen.Kernel.Skeleton
import proofs.«158090_j2594160247151_2_alg».proof.Proof.Gen.Kernel.Launch
import proofs.«158090_j2594160247151_2_alg».proof.Proof.Gen.Kernel.Points
import proofs.«158090_j2594160247151_2_alg».proof.Proof.Gen.Kernel.Frame
import proofs.«158090_j2594160247151_2_alg».proof.Proof.Gen.KernelIdeal
import proofs.«158090_j2594160247151_2_alg».proof.Proof.Gen.KernelIdeal.Skeleton
import proofs.«158090_j2594160247151_2_alg».proof.Proof.Gen.KernelIdeal.Launch
import proofs.«158090_j2594160247151_2_alg».proof.Proof.Gen.KernelIdeal.Points
import proofs.«158090_j2594160247151_2_alg».proof.Proof.Gen.KernelIdeal.Frame
import proofs.«158090_j2594160247151_2_alg».proof.Proof.Gen.ReferenceIdeal
import proofs.«158090_j2594160247151_2_alg».proof.Proof.Gen.Pre_finite_inputs
import proofs.«158090_j2594160247151_2_alg».proof.Proof.Gen.KernelIdeal.Value
import proofs.«158090_j2594160247151_2_alg».proof.Proof.KernelValue
import proofs.«158090_j2594160247151_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both result arrays end at `result` of the arguments (the kernel's run and the reference's run, each read), and the
    arguments agree. -/
theorem algebraic : Cert.algebraic_KernelIdeal_ReferenceIdeal := by
  intro m ρ m' ρ' _ hagree
  refine ⟨fun c => Cert.KernelIdeal.Hand.resultM m c, Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  rw [Cert.ReferenceIdeal.Hand.res_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
